-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x768 : Shape := ⟨2, ![2048, 768]⟩
abbrev S1024x1024 : Shape := ⟨2, ![1024, 1024]⟩
abbrev S768x1024 : Shape := ⟨2, ![768, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S768x1024 .f32) (main_arg5 : FVec F S768x1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S768x1024 .f32 := Host.absf main_arg4
  let main_cst_6 : FVec F S_ .f32 := constant S_ .f32 0x7F800000#32
  let main_v20 : FVec F S768x1024 .f32 := broadcastInDim S768x1024 ![] bcast_S_S768x1024 main_cst_6
  let main_v21 : IVec S768x1024 1 := cmpf .olt main_v19 main_v20
  let main_c_7 : IVec S_ 1 := constantI S_ 1 1#1
  let main_v22 : IVec S_ 1 := (fun x v => Host.reduce IntOp.andi x v reducesTo_S768x1024_S_d0_1 h_S_) main_v21 main_c_7
  let main_v23 : IVec S_ 1 := andi main_v18 main_v22
  let main_v24 : FVec F S768x1024 .f32 := Host.absf main_arg5
  let main_cst_8 : FVec F S_ .f32 := constant S_ .f32 0x7F800000#32
  let main_v25 : FVec F S768x1024 .f32 := broadcastInDim S768x1024 ![] bcast_S_S768x1024 main_cst_8
  let main_v26 : IVec S768x1024 1 := cmpf .olt main_v24 main_v25
  let main_c_9 : IVec S_ 1 := constantI S_ 1 1#1
  let main_v27 : IVec S_ 1 := (fun x v => Host.reduce IntOp.andi x v reducesTo_S768x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2048x1024 .f32) (main_arg1 : FVec F S2048x768 .f32) (main_arg2 : FVec F S2048x768 .f32) (main_arg3 : FVec F S1024x1024 .f32) (main_arg4 : FVec F S768x1024 .f32) (main_arg5 : FVec F S768x1024 .f32) (main_arg6 : FVec F S1024x1024 .f32) (main_arg7 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S2048x768 .f32 := Host.absf main_arg2
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S2048x1024 : Shape := ⟨2, ![2048, 1024]⟩
abbrev S2048x768 : Shape := ⟨2, ![2048, 768]⟩
abbrev S1024x1024 : Shape := ⟨2, ![1024, 1024]⟩
abbrev S768x1024 : Shape := ⟨2, ![768, 1024]⟩
abbrev S1024 : Shape := ⟨1, ![1024]⟩
abbrev S256x1024 : Shape := ⟨2, ![256, 1024]⟩
abbrev S256x768 : Shape := ⟨2, ![256, 768]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 18
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S2048x768, .f32⟩
  | .hbm, ⟨2, _⟩ => ⟨S2048x768, .f32⟩
  | .hbm, ⟨3, _⟩ => ⟨S1024x1024, .f32⟩
  | .hbm, ⟨4, _⟩ => ⟨S768x1024, .f32⟩
  | .hbm, ⟨5, _⟩ => ⟨S768x1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S768x1024, .bf16⟩
  | .hbm, ⟨10, _⟩ => ⟨S768x1024, .bf16⟩
  | .hbm, ⟨11, _⟩ => ⟨S1024x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x1024, .f32⟩
  | .hbm, ⟨16, _⟩ => ⟨S1x1024, .f32⟩
  | .hbm, ⟨17, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x768, .f32⟩
  | .local _ .vmem, ⟨6, _⟩ => ⟨S256x768, .f32⟩
  | .local _ .vmem, ⟨7, _⟩ => ⟨S768x1024, .bf16⟩
  | .local _ .vmem, ⟨8, _⟩ => ⟨S256x1024, .bf16⟩
  | .local _ .vmem, ⟨9, _⟩ => ⟨S256x1024, .bf16⟩
  | .local _ .vmem, ⟨10, _⟩ => ⟨S256x768, .f32⟩
  | .local _ .vmem, ⟨11, _⟩ => ⟨S256x768, .f32⟩
  | .local _ .vmem, ⟨12, _⟩ => ⟨S768x1024, .bf16⟩
  | .local _ .vmem, ⟨13, _⟩ => ⟨S256x1024, .bf16⟩
  | .local _ .vmem, ⟨14, _⟩ => ⟨S256x1024, .bf16⟩
  | .local _ .vmem, ⟨15, _⟩ => ⟨S256x128, .bf16⟩
  | .local _ .vmem, ⟨16, _⟩ => ⟨S256x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S256x128, .f32⟩
  | .local _ .vmem, ⟨22, _⟩ => ⟨S256x128, .f32⟩
  | .local _ .vmem, ⟨23, _⟩ => ⟨S256x1024, .f32⟩
  | .local _ .vmem, ⟨24, _⟩ => ⟨S256x1024, .f32⟩
  | .local _ .vmem, ⟨25, _⟩ => ⟨S1024x1024, .bf16⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S256x1024_S256x1024_0_0 : (Rect.unit (s := S256x1024) ![0, 0] S256x1024.size inb_S256x1024_S256x1024_0_0).PackedRows (EltTy.packing .bf16)
  inb_S256x768_S256x768_0_0 : ∀ a, (![0, 0] : Fin 2 → Nat) a + S256x768.size a ≤ S256x768.size a
  h_S256x768 : 0 < S256x768.numel
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S256x128_o0_0_S256x64 : S256x128.Slices ![0, 0] S256x64
  slices_S2048x128_o0_0_S2048x64 : S2048x128.Slices ![0, 0] S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  shapeCasts_S1024_S1x1024 : S1024.ShapeCasts S1x1024
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  dot_S256x768_S768x1024_S256x1024_1_0_0_1_n_n_wf : DotDims.WF S256x768 S768x1024 S256x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .bf16 = 32 ∨ (Rect.block (s := S2048x1024) S256x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x768.size a ≤ S2048x768.size a
  hwx1_0 : ∀ i : grid1.Coords, EltTy.bits .f32 = 32 ∨ (Rect.block (s := S2048x768) S256x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x1024.size a ≤ S768x1024.size a
  hwx1_1 : ∀ i : grid1.Coords, EltTy.bits .bf16 = 32 ∨ (Rect.block (s := S768x1024) S768x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S2048x1024.size a
  hwx1_2 : ∀ i : grid1.Coords, EltTy.bits .bf16 = 32 ∨ (Rect.block (s := S2048x1024) S256x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x768.size a ≤ S2048x768.size a
  hwx2_0 : ∀ i : grid2.Coords, EltTy.bits .f32 = 32 ∨ (Rect.block (s := S2048x768) S256x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x1024.size a ≤ S768x1024.size a
  hwx2_1 : ∀ i : grid2.Coords, EltTy.bits .bf16 = 32 ∨ (Rect.block (s := S768x1024) S768x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S2048x1024.size a
  hwx2_2 : ∀ i : grid2.Coords, EltTy.bits .bf16 = 32 ∨ (Rect.block (s := S2048x1024) S256x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S2048x1024.size a
  hwx3_0 : ∀ i : grid3.Coords, EltTy.bits .bf16 = 32 ∨ (Rect.block (s := S2048x1024) S256x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x1024.size a
  hwx3_1 : ∀ i : grid3.Coords, EltTy.bits .bf16 = 32 ∨ (Rect.block (s := S2048x1024) S2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S2048x1024.size a
  hwx3_2 : ∀ i : grid3.Coords, EltTy.bits .bf16 = 32 ∨ (Rect.block (s := S2048x1024) S2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S2048x1024.size a
  hwx3_3 : ∀ i : grid3.Coords, EltTy.bits .f32 = 32 ∨ (Rect.block (s := S2048x1024) S256x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S2048x1024.size a
  hwx4_0 : ∀ i : grid4.Coords, EltTy.bits .f32 = 32 ∨ (Rect.block (s := S2048x1024) S256x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x1024.size a ≤ S2048x1024.size a
  hwx4_3 : ∀ i : grid4.Coords, EltTy.bits .f32 = 32 ∨ (Rect.block (s := S2048x1024) S256x1024.size (cc4_transform_3 i) (hinb4_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S256x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S768x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S256x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v7) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S256x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x1024 : Shape := ⟨2, ![2048, 1024]⟩
abbrev S2048x768 : Shape := ⟨2, ![2048, 768]⟩
abbrev S1024x1024 : Shape := ⟨2, ![1024, 1024]⟩
abbrev S768x1024 : Shape := ⟨2, ![768, 1024]⟩
abbrev S1024 : Shape := ⟨1, ![1024]⟩
abbrev S_ : Shape := ⟨0, ![]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S16x2048 : Shape := ⟨2, ![16, 2048]⟩
abbrev S16x2048x1 : Shape := ⟨3, ![16, 2048, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x768, .f32⟩
  | .hbm, ⟨2, _⟩ => ⟨S2048x768, .f32⟩
  | .hbm, ⟨3, _⟩ => ⟨S1024x1024, .f32⟩
  | .hbm, ⟨4, _⟩ => ⟨S768x1024, .f32⟩
  | .hbm, ⟨5, _⟩ => ⟨S768x1024, .f32⟩
  | .hbm, ⟨6, _⟩ => ⟨S1024x1024, .f32⟩
  | .hbm, ⟨7, _⟩ => ⟨S1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x16x64, .f32⟩
  | .hbm, ⟨17, _⟩ => ⟨S16x2048x64, .f32⟩
  | .hbm, ⟨18, _⟩ => ⟨S2048x16x64, .f32⟩
  | .hbm, ⟨19, _⟩ => ⟨S16x2048x64, .f32⟩
  | .hbm, ⟨20, _⟩ => ⟨S2048x16x64, .f32⟩
  | .hbm, ⟨21, _⟩ => ⟨S16x2048x64, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x2048x64, .f32⟩
  | .hbm, ⟨38, _⟩ => ⟨S2048x16x64, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  shapeCasts_S2048x1024_S2048x16x64 : S2048x1024.ShapeCasts S2048x16x64
  transposes_S2048x16x64_S16x2048x64_1_0_2 : S2048x16x64.Transposes [1, 0, 2] S16x2048x64
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  dot_S2048x1024_S1024x1024_S2048x1024_1_0_0_1_n_n_wf : DotDims.WF S2048x1024 S1024x1024 S2048x1024 [1] [0] [0] [1] [] []
  dot_S2048x768_S768x1024_S2048x1024_1_0_0_1_n_n_wf : DotDims.WF S2048x768 S768x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x768_S768x1024_S2048x1024_1_0_0_1_n_n : DotDims S2048x768 S768x1024 S2048x1024 where
  lhsContracting := [1]
  rhsContracting := [0]
  lhsNonContracting := [0]
  rhsNonContracting := [1]
  lhsBatch := []
  rhsBatch := []
  wf := dot_S2048x768_S768x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KernelRun.lean ====
/-
  The idealized kernel's run with its RESULT named. The program is four host casts, five kernel regions and one host
  reshape; the array each region leaves behind is the entry contents of the next. This module re-states the run of
  those seven segments with, beside the eight unchanged arguments, the result buffer at the last boundary's contents:
  after the last region the result array holds what that region's write-backs left.
-/
import proofs.«106647_j59322088292867_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    last segment boundary gives it and the eight arguments as launched. -/
theorem run_result : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Result

end
-- ==== Proof.Boundaries.lean ====
/-
  What the kernel program's buffers hold at the boundaries between its segments.

  The program is: four host casts of the weight arrays from f32 to bf16 (main_arg3 → main_v0, main_arg4 → main_v1,
  main_arg5 → main_v2, main_arg6 → main_v3); region 0 (main_arg0, main_v0 ↦ main_v4); region 1 (main_arg1, main_v1 ↦
  main_v5); region 2 (main_arg2, main_v2 ↦ main_v6); region 3 (main_v4, main_v5, main_v6 ↦ main_v7); one host reshape of
  the bias (main_arg7 [1024] → main_v8 [1, 1024]); region 4 (main_v7, main_v3, main_v8 ↦ main_v9).

  The contents at each boundary are a fold through the program: a host stretch changes only the buffers its operations
  write, and a region changes only its own arrays, leaving in each output array what its write-backs leave. So a buffer
  is followed backwards from a boundary, through every segment that does not write it, to the segment that wrote it or
  to the launch memory:

  • over the extended reals a change of float format is the identity, so each cast weight array holds its f32
    argument's contents;
  • the input arguments are as launched when their regions read them;
  • the three projections and the context are exactly what the regions that produce them leave;
  • the reshaped bias, read at (0, j), is the bias argument at j.
-/
import proofs.«106647_j59322088292867_2_alg».proof.Proof.Gen.KernelIdeal.Frame
import Idealize.ShloMosaic.Lib.ValueLayout
import Idealize.ShloMosaic.Lib.ValueIdx

noncomputable section

namespace Cert.KernelIdeal.Boundaries

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The four host casts write main_v0 … main_v3 only: any other buffer is as launched after them. -/
theorem W1_of_ne (b : Ref sig .tc) (h0 : b ≠ main_v0) (h1 : b ≠ main_v1) (h2 : b ≠ main_v2) (h3 : b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2, StableHlo.devRef_ne_of_ne h3⟩))

/-- The host reshape writes main_v8 only: any other buffer is unchanged by it. -/
theorem W6_of_ne (b : Ref sig .tc) (h : b ≠ main_v8) :
    W6 m ρ c (Proc.devRef .tc b) = W5 m ρ c (Proc.devRef .tc b) :=
  StableHlo.after_of_forall_not_mem (b := Proc.devRef .tc b) _ _ (List.forall_iff_forall_mem.mp (by
    simp only [hostOps4, List.Forall, StableHlo.reshape_writes, Finset.mem_singleton]
    exact StableHlo.devRef_ne_of_ne h))

/-! ## After the four casts: over the extended reals a change of float format is the identity, so each cast weight
    array holds its f32 argument's contents -/

theorem W1_v0 : (W1 m ρ c (Proc.devRef .tc main_v0) : S1024x1024.Idx → EReal)
    = (m ((c : Thread nD τ).loc main_arg3) : S1024x1024.Idx → EReal) := by
  show StableHlo.after hostOps0 (W0 m ρ c) (Proc.devRef .tc main_v0) = _
  after_results
  rfl

theorem W1_v1 : (W1 m ρ c (Proc.devRef .tc main_v1) : S768x1024.Idx → EReal)
    = (m ((c : Thread nD τ).loc main_arg4) : S768x1024.Idx → EReal) := by
  show StableHlo.after hostOps0 (W0 m ρ c) (Proc.devRef .tc main_v1) = _
  after_results
  rfl

theorem W1_v2 : (W1 m ρ c (Proc.devRef .tc main_v2) : S768x1024.Idx → EReal)
    = (m ((c : Thread nD τ).loc main_arg5) : S768x1024.Idx → EReal) := by
  show StableHlo.after hostOps0 (W0 m ρ c) (Proc.devRef .tc main_v2) = _
  after_results
  rfl

theorem W1_v3 : (W1 m ρ c (Proc.devRef .tc main_v3) : S1024x1024.Idx → EReal)
    = (m ((c : Thread nD τ).loc main_arg6) : S1024x1024.Idx → EReal) := by
  show StableHlo.after hostOps0 (W0 m ρ c) (Proc.devRef .tc main_v3) = _
  after_results
  rfl

/-! ## Region 0's entry -/

theorem entry0_left : V1 m ρ c main_arg0 = m ((c : Thread nD τ).loc main_arg0) :=
  (W1_of_ne m ρ c main_arg0 (by decide) (by decide) (by decide) (by decide)).trans rfl

theorem entry0_right : (V1 m ρ c main_v0 : S1024x1024.Idx → EReal)
    = (m ((c : Thread nD τ).loc main_arg3) : S1024x1024.Idx → EReal) :=
  W1_v0 m ρ c

/-! ## Region 1's entry: region 0 touches neither of region 1's inputs -/

theorem entry1_left : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide) (by decide) (by decide) (by decide)
    _ = m ((c : Thread nD τ).loc main_arg1) := rfl

theorem entry1_right : (V2 m ρ c main_v1 : S768x1024.Idx → EReal)
    = (m ((c : Thread nD τ).loc main_arg4) : S768x1024.Idx → EReal) :=
  (W2_of_ne m ρ c main_v1 (by decide)).trans (W1_v1 m ρ c)

/-! ## Region 2's entry -/

theorem entry2_left : V3 m ρ c main_arg2 = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide) (by decide) (by decide) (by decide)
    _ = m ((c : Thread nD τ).loc main_arg2) := rfl

theorem entry2_right : (V3 m ρ c main_v2 : S768x1024.Idx → EReal)
    = (m ((c : Thread nD τ).loc main_arg5) : S768x1024.Idx → EReal) :=
  ((W3_of_ne m ρ c main_v2 (by decide)).trans (W2_of_ne m ρ c main_v2 (by decide))).trans (W1_v2 m ρ c)

/-! ## Region 3's entry: the three projections are what regions 0, 1, 2 left, each untouched by the later regions -/

theorem entry3_q : V4 m ρ c main_v4 = (dat0 (V1 m ρ) c).arrAt 2 cfg0.N :=
  calc W4 m ρ c (Proc.devRef .tc main_v4)
    _ = W3 m ρ c (Proc.devRef .tc main_v4) := W4_of_ne m ρ c main_v4 (by decide)
    _ = W2 m ρ c (Proc.devRef .tc main_v4) := W3_of_ne m ρ c main_v4 (by decide)
    _ = (dat0 (V1 m ρ) c).arrAt 2 cfg0.N := W2_arr m ρ c 2

theorem entry3_k : V4 m ρ c main_v5 = (dat1 (V2 m ρ) c).arrAt 2 cfg1.N :=
  calc W4 m ρ c (Proc.devRef .tc main_v5)
    _ = W3 m ρ c (Proc.devRef .tc main_v5) := W4_of_ne m ρ c main_v5 (by decide)
    _ = (dat1 (V2 m ρ) c).arrAt 2 cfg1.N := W3_arr m ρ c 2

theorem entry3_v : V4 m ρ c main_v6 = (dat2 (V3 m ρ) c).arrAt 2 cfg2.N :=
  W4_arr m ρ c 2

/-! ## Region 4's entry -/

theorem entry4_ctx : V6 m ρ c main_v7 = (dat3 (V4 m ρ) c).arrAt 3 cfg3.N :=
  calc W6 m ρ c (Proc.devRef .tc main_v7)
    _ = W5 m ρ c (Proc.devRef .tc main_v7) := W6_of_ne m ρ c main_v7 (by decide)
    _ = (dat3 (V4 m ρ) c).arrAt 3 cfg3.N := W5_arr m ρ c 3

theorem entry4_weights : (V6 m ρ c main_v3 : S1024x1024.Idx → EReal)
    = (m ((c : Thread nD τ).loc main_arg6) : S1024x1024.Idx → EReal) :=
  calc W6 m ρ c (Proc.devRef .tc main_v3)
    _ = W5 m ρ c (Proc.devRef .tc main_v3) := W6_of_ne m ρ c main_v3 (by decide)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)
    _ = m ((c : Thread nD τ).loc main_arg6) := W1_v3 m ρ c

/-- The bias argument is as launched when the host reshape reads it. -/
theorem W5_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of_ne m ρ c main_arg7 (by decide) (by decide) (by decide) (by decide)
    _ = m ((c : Thread nD τ).loc main_arg7) := rfl

/-- The reshaped bias [1, 1024] at (0, j) is the bias argument at j. -/
theorem entry4_bias : ∀ j : Fin 1024, (V6 m ρ c main_v8 : S1x1024.Idx → EReal) (ix2 (0 : Fin 1) j)
    = (m ((c : Thread nD τ).loc main_arg7) : S1024.Idx → EReal) (ix1 j) := by
  intro j
  have e : (V6 m ρ c main_v8 : S1x1024.Idx → EReal)
      = shapeCast S1x1024 (W5 m ρ c (Proc.devRef .tc main_arg7) : S1024.Idx → EReal) shapeCasts_S1024_S1x1024 := by
    show StableHlo.after hostOps4 (W5 m ρ c) (Proc.devRef .tc main_v8) = _
    after_results
    rfl
  rw [e, W5_arg7]
  exact shapeCast_a_1a_apply _ _ 0 j

/-! ## Region 4's exit -/

theorem exit4 : W7 m ρ c (Proc.devRef .tc main_v9) = (dat4 (V6 m ρ) c).arrAt 3 cfg4.N :=
  W7_arr m ρ c 3

end Cert.KernelIdeal.Boundaries

end
-- ==== Proof.AttentionSpec.lean ====
/-
  Multi-head attention on coordinates, over the extended reals.

  A matrix is a function of its row and its column. The projections are plain matrix products; head h owns the 64
  columns 64·h … 64·h + 63 of the projected queries, keys and values; the score of query row n against key row m in
  head h is the dot product of their 64 head columns times a scale; a row of scores is turned into softmax weights
  (shift by the row's maximum, exponentiate, divide by the sum); the context row is the weighted sum of the value rows,
  written back at the head's own columns; the result is the context times the output matrix plus the bias.

  The two programs differ in one place only: where the scale 64^(-1/2) = 1/8 is applied. One multiplies the finished dot
  product by the literal 1/8 (scoreAfter); the other multiplies every query entry by 64^(-1/2), computed as a power,
  before the dot product (scoreBefore). Everything after the scores is the same function of them, so it is stated
  once, over an arbitrary table of scores.
-/
import Idealize.ShloMosaic.PureOps.Ideal
import Idealize.ShloMosaic.Lib.ValueIdx

noncomputable section

namespace AttentionSpec

open Idealize.ShloMosaic Idealize.ShloMosaic.ValueIdx

/-- A rank-2 array read by row and column. -/
abbrev rc {a b : ℕ} (x : (⟨2, ![a, b]⟩ : Shape).Idx → EReal) : Fin a → Fin b → EReal := fun r c => x (ix2 r c)

/-- A rank-1 array read by position. -/
abbrev at1 {a : ℕ} (x : (⟨1, ![a]⟩ : Shape).Idx → EReal) : Fin a → EReal := fun c => x (ix1 c)

/-- The matrix product, entry by entry. -/
def mm {M K N : ℕ} (X : Fin M → Fin K → EReal) (W : Fin K → Fin N → EReal) (r : Fin M) (c : Fin N) : EReal :=
  ∑ k : Fin K, X r k * W k c

/-- The head a model column belongs to. -/
def headOf (d : Fin 1024) : Fin 16 := ⟨d.val / 64, by have := d.isLt; omega⟩

/-- Column c of head h among the 1024 model columns. -/
def col (h : Fin 16) (c : Fin 64) : Fin 1024 := ⟨64 * h.val + c.val, by have := h.isLt; have := c.isLt; omega⟩

/-- The dot product of query row n and key row m over head h's columns, scaled AFTERWARDS by the literal 1/8. -/
def scoreAfter (qp kp : Fin 2048 → Fin 1024 → EReal) (h : Fin 16) (n m : Fin 2048) : EReal :=
  (∑ c : Fin 64, qp n (col h c) * kp m (col h c)) * Ideal.ofBits .f32 0x3E000000#32

/-- The same dot product with every query entry scaled BEFOREHAND by 64 ^ (-1/2), a power of two literals. -/
def scoreBefore (qp kp : Fin 2048 → Fin 1024 → EReal) (h : Fin 16) (n m : Fin 2048) : EReal :=
  ∑ c : Fin 64, (qp n (col h c) * Ideal.pow (Ideal.ofBits .f32 0x42800000#32) (Ideal.ofBits .f32 0xBF000000#32)) * kp m (col h c)

/-- The largest score of a row (the fold of max from -∞). -/
def rowMax (s : Fin 2048 → EReal) : EReal := (Finset.univ : Finset (Fin 2048)).fold max ⊥ s

/-- The softmax weight of position m in a row of scores. -/
def weight (s : Fin 2048 → EReal) (m : Fin 2048) : EReal :=
  Ideal.div (Ideal.exp (s m - rowMax s)) (∑ m' : Fin 2048, Ideal.exp (s m' - rowMax s))

/-- The context: for query row n and model column d (in head headOf d), the value column d averaged with the weights of
    row n's scores in that head. -/
def context (s : Fin 16 → Fin 2048 → Fin 2048 → EReal) (vp : Fin 2048 → Fin 1024 → EReal) (n : Fin 2048) (d : Fin 1024) : EReal :=
  ∑ m : Fin 2048, weight (s (headOf d) n) m * vp m d

/-- The layer's output from a table of scores: context × output matrix + bias. -/
def output (s : Fin 16 → Fin 2048 → Fin 2048 → EReal) (vp : Fin 2048 → Fin 1024 → EReal) (Wo : Fin 1024 → Fin 1024 → EReal)
    (bo : Fin 1024 → EReal) (n : Fin 2048) (j : Fin 1024) : EReal :=
  mm (context s vp) Wo n j + bo j

end AttentionSpec

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.Projections.lean ====
/-
  The three projection regions of the idealized kernel: q·Wq, k·Wk and v·Wv.

  Each region walks a grid of eight points. Point t stages rows 256·t … 256·t + 255 of the left array and the whole
  right array, multiplies them (a change of float format is the identity on the extended reals, and the product into a
  zero accumulator is the plain sum over the contracted axis), and writes the 256 × 1024 tile back as row block t of the
  result. The eight row blocks tile the result, so after the region the result array is the matrix product of the two
  arrays the region found, whatever they were: each statement is made for an arbitrary entry valuation V.
-/
import proofs.«106647_j59322088292867_2_alg».proof.Proof.Gen.KernelIdeal.Frame
import proofs.«106647_j59322088292867_2_alg».proof.Proof.AttentionSpec
import proofs.«106647_j59322088292867_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen AttentionSpec

/-- The zero offsets of a whole-buffer access. -/
theorem zero_offsets : (![0, 0] : Fin 2 → Nat) = fun _ => 0 := funext fun a => by fin_cases a <;> rfl

variable (V : (c : Dev nD) → (b : Ref sig .tc) → Buf (Elt Ideal) ((c : Thread nD τ).loc b))

/-! ## Region 0: a row tile of main_arg0 times the whole of main_v0 -/

/-- The tile's product at an entry: the row of the left tile against the column of the right operand. -/
theorem tile0_apply (x0 : Vec Ideal S256x1024 .f32) (x1 : Vec Ideal S1024x1024 .bf16) (r : Fin 256) (c : Fin 1024) :
    k0_pay1 (F := Ideal) x0 x1 (ix2 r c) = ∑ k : Fin 1024, x0 (ix2 r k) * x1 (ix2 k c) := by
  unfold k0_pay1
  rw [shapeCast_self]
  exact PlainMatmul.apply_zero (M := 256) (K := 1024) (N := 1024) (φ₁ := .bf16) (φ₂ := .bf16) (truncf .bf16 x0 bitsLt_bf16_f32) x1 r c

/-- When the left tile holds rows 256·t … 256·t + 255 of A and the right operand is B, the tile's product at y is the
    product A·B at the array index i = (256·t + y₀, y₁). -/
theorem tile0_at (x0 : Vec Ideal S256x1024 .f32) (x1 : Vec Ideal S1024x1024 .bf16) (A : S2048x1024.Idx → EReal) (B : S1024x1024.Idx → EReal)
    (t : ℕ)
    (h0 : ∀ (r : Fin 256) (k : Fin 1024) (n : Fin 2048), n.val = 256 * t + r.val → x0 (ix2 r k) = A (ix2 n k))
    (h1 : ∀ (k : Fin 1024) (c : Fin 1024), x1 (ix2 k c) = B (ix2 k c))
    (y : S256x1024.Idx) (i : S2048x1024.Idx) (hi0 : (i 0).val = 256 * t + (y 0).val) (hi1 : (i 1).val = (y 1).val) :
    k0_pay1 (F := Ideal) x0 x1 y = mm (rc A) (rc B) (i 0) (i 1) := by
  obtain ⟨r, c, rfl⟩ : ∃ (r : Fin 256) (c : Fin 1024), y = ix2 r c := ⟨y 0, y 1, eq_ix2 y⟩
  obtain ⟨n, j, rfl⟩ : ∃ (n : Fin 2048) (j : Fin 1024), i = ix2 n j := ⟨i 0, i 1, eq_ix2 i⟩
  have ej : j = c := Fin.ext hi1
  subst ej
  rw [tile0_apply]
  show _ = ∑ k : Fin 1024, A (ix2 n k) * B (ix2 k j)
  exact Finset.sum_congr rfl fun k _ => by rw [h0 r k n hi0, h1 k j]

/-- The block indices over the eight grid points: point t reads row block t of the left array and the whole right
    array, and writes row block t of the result. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem written0 (c : Dev nD) (t : Fin cfg0.N) :
    (dat0 V c).flushed 2 t = ((cfg0.win 2).blk t).view.read (Elt Ideal)
      (fun i => mm (rc (V c main_arg0)) (rc (V c main_v0)) (i 0) (i 1)) := by
  show (cfg0.win 2).cut (grid0.coords t) ((dat0 V c).after 2 t) = _
  rw [after0_2]
  unfold out0_2
  rw [View.canon_unit_zero zero_offsets]
  simp only [View.ld_unit_zero (S := S256x1024) zero_offsets, View.ld_unit_zero (S := S1024x1024) zero_offsets]
  obtain ⟨e0, e1, e2, e3, e4, e5⟩ := blocks0 t
  funext y
  show k0_pay1 (F := Ideal) (iblk0 V c 0 t) (iblk0 V c 1 t) y = mm (rc (V c main_arg0)) (rc (V c main_v0)) ((((cfg0.win 2).blk t).view.emb y) 0) ((((cfg0.win 2).blk t).view.emb y) 1)
  refine tile0_at _ _ _ _ t.val ?_ ?_ y _ ?_ ?_
  · intro r k n hn
    show V c main_arg0 (((cfg0.win 0).blk t).view.emb (ix2 r k)) = V c main_arg0 (ix2 n k)
    refine congrArg _ (funext fun a => Fin.ext ?_)
    match a with
    | ⟨0, _⟩ => show win0_0.index t (0 : Fin 2) * 256 + 1 * r.val = n.val; omega
    | ⟨1, _⟩ => show win0_0.index t (1 : Fin 2) * 1024 + 1 * k.val = k.val; omega
  · intro k j
    show V c main_v0 (((cfg0.win 1).blk t).view.emb (ix2 k j)) = V c main_v0 (ix2 k j)
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * j.val = j.val; omega
  · show win0_2.index t (0 : Fin 2) * 256 + 1 * (y 0).val = 256 * t.val + (y 0).val; omega
  · show win0_2.index t (1 : Fin 2) * 1024 + 1 * (y 1).val = (y 1).val; omega

/-- An index lies in point t's result block iff each coordinate lies in the block's range. -/
theorem mem_block0 (t : Fin cfg0.N) (i : S2048x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v4).slice (win0_2.rect t)).set ↔ _
  rw [View.set_slice_whole, Rect.mem_set_unit]
  exact Iff.rfl

/-- The eight row blocks cover the result array (row n lies in block n / 256), so after the region it holds the
    product of the two arrays the region found. -/
theorem product0 (c : Dev nD) : (dat0 V c).arrAt 2 cfg0.N = fun i => mm (rc (V c main_arg0)) (rc (V c main_v0)) (i 0) (i 1) :=
  (dat0 V c).arrAt_eq_of_cover 2 _ (fun t _ => written0 V c t) fun i => by
    have hi0 : (i 0).val < 2048 := (i 0).isLt
    have hi1 : (i 1).val < 1024 := (i 1).isLt
    refine ⟨⟨(i 0).val / 256, by show (i 0).val / 256 < 8; omega⟩, flush0_2 _, ?_⟩
    rw [mem_block0]
    obtain ⟨e0, e1, e2, e3, e4, e5⟩ := blocks0 ⟨(i 0).val / 256, by show (i 0).val / 256 < 8; omega⟩
    intro a
    match a with
    | ⟨0, _⟩ => show win0_2.index _ (0 : Fin 2) * 256 ≤ (i 0).val ∧ (i 0).val < win0_2.index _ (0 : Fin 2) * 256 + 256; rw [e4]; show (i 0).val / 256 * 256 ≤ _ ∧ _ < (i 0).val / 256 * 256 + 256; omega
    | ⟨1, _⟩ => show win0_2.index _ (1 : Fin 2) * 1024 ≤ (i 1).val ∧ (i 1).val < win0_2.index _ (1 : Fin 2) * 1024 + 1024; rw [e5]; omega

/-! ## Region 1: a row tile of main_arg1 times the whole of main_v1 -/

/-- The tile's product at an entry: the row of the left tile against the column of the right operand. -/
theorem tile1_apply (x0 : Vec Ideal S256x768 .f32) (x1 : Vec Ideal S768x1024 .bf16) (r : Fin 256) (c : Fin 1024) :
    k1_pay1 (F := Ideal) x0 x1 (ix2 r c) = ∑ k : Fin 768, x0 (ix2 r k) * x1 (ix2 k c) := by
  unfold k1_pay1
  rw [shapeCast_self]
  exact PlainMatmul.apply_zero (M := 256) (K := 768) (N := 1024) (φ₁ := .bf16) (φ₂ := .bf16) (truncf .bf16 x0 bitsLt_bf16_f32) x1 r c

/-- When the left tile holds rows 256·t … 256·t + 255 of A and the right operand is B, the tile's product at y is the
    product A·B at the array index i = (256·t + y₀, y₁). -/
theorem tile1_at (x0 : Vec Ideal S256x768 .f32) (x1 : Vec Ideal S768x1024 .bf16) (A : S2048x768.Idx → EReal) (B : S768x1024.Idx → EReal)
    (t : ℕ)
    (h0 : ∀ (r : Fin 256) (k : Fin 768) (n : Fin 2048), n.val = 256 * t + r.val → x0 (ix2 r k) = A (ix2 n k))
    (h1 : ∀ (k : Fin 768) (c : Fin 1024), x1 (ix2 k c) = B (ix2 k c))
    (y : S256x1024.Idx) (i : S2048x1024.Idx) (hi0 : (i 0).val = 256 * t + (y 0).val) (hi1 : (i 1).val = (y 1).val) :
    k1_pay1 (F := Ideal) x0 x1 y = mm (rc A) (rc B) (i 0) (i 1) := by
  obtain ⟨r, c, rfl⟩ : ∃ (r : Fin 256) (c : Fin 1024), y = ix2 r c := ⟨y 0, y 1, eq_ix2 y⟩
  obtain ⟨n, j, rfl⟩ : ∃ (n : Fin 2048) (j : Fin 1024), i = ix2 n j := ⟨i 0, i 1, eq_ix2 i⟩
  have ej : j = c := Fin.ext hi1
  subst ej
  rw [tile1_apply]
  show _ = ∑ k : Fin 768, A (ix2 n k) * B (ix2 k j)
  exact Finset.sum_congr rfl fun k _ => by rw [h0 r k n hi0, h1 k j]

/-- The block indices over the eight grid points: point t reads row block t of the left array and the whole right
    array, and writes row block t of the result. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two arrays as the region finds them. -/
theorem written1 (c : Dev nD) (t : Fin cfg1.N) :
    (dat1 V c).flushed 2 t = ((cfg1.win 2).blk t).view.read (Elt Ideal)
      (fun i => mm (rc (V c main_arg1)) (rc (V c main_v1)) (i 0) (i 1)) := by
  show (cfg1.win 2).cut (grid1.coords t) ((dat1 V c).after 2 t) = _
  rw [after1_2]
  unfold out1_2
  rw [View.canon_unit_zero zero_offsets]
  simp only [View.ld_unit_zero (S := S256x768) zero_offsets, View.ld_unit_zero (S := S768x1024) zero_offsets]
  obtain ⟨e0, e1, e2, e3, e4, e5⟩ := blocks1 t
  funext y
  show k1_pay1 (F := Ideal) (iblk1 V c 0 t) (iblk1 V c 1 t) y = mm (rc (V c main_arg1)) (rc (V c main_v1)) ((((cfg1.win 2).blk t).view.emb y) 0) ((((cfg1.win 2).blk t).view.emb y) 1)
  refine tile1_at _ _ _ _ t.val ?_ ?_ y _ ?_ ?_
  · intro r k n hn
    show V c main_arg1 (((cfg1.win 0).blk t).view.emb (ix2 r k)) = V c main_arg1 (ix2 n k)
    refine congrArg _ (funext fun a => Fin.ext ?_)
    match a with
    | ⟨0, _⟩ => show win1_0.index t (0 : Fin 2) * 256 + 1 * r.val = n.val; omega
    | ⟨1, _⟩ => show win1_0.index t (1 : Fin 2) * 768 + 1 * k.val = k.val; omega
  · intro k j
    show V c main_v1 (((cfg1.win 1).blk t).view.emb (ix2 k j)) = V c main_v1 (ix2 k j)
    refine congrArg _ (funext fun a => Fin.ext ?_)
    match a with
    | ⟨0, _⟩ => show win1_1.index t (0 : Fin 2) * 768 + 1 * k.val = k.val; omega
    | ⟨1, _⟩ => show win1_1.index t (1 : Fin 2) * 1024 + 1 * j.val = j.val; omega
  · show win1_2.index t (0 : Fin 2) * 256 + 1 * (y 0).val = 256 * t.val + (y 0).val; omega
  · show win1_2.index t (1 : Fin 2) * 1024 + 1 * (y 1).val = (y 1).val; omega

/-- An index lies in point t's result block iff each coordinate lies in the block's range. -/
theorem mem_block1 (t : Fin cfg1.N) (i : S2048x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v5).slice (win1_2.rect t)).set ↔ _
  rw [View.set_slice_whole, Rect.mem_set_unit]
  exact Iff.rfl

/-- The eight row blocks cover the result array (row n lies in block n / 256), so after the region it holds the
    product of the two arrays the region found. -/
theorem product1 (c : Dev nD) : (dat1 V c).arrAt 2 cfg1.N = fun i => mm (rc (V c main_arg1)) (rc (V c main_v1)) (i 0) (i 1) :=
  (dat1 V c).arrAt_eq_of_cover 2 _ (fun t _ => written1 V c t) fun i => by
    have hi0 : (i 0).val < 2048 := (i 0).isLt
    have hi1 : (i 1).val < 1024 := (i 1).isLt
    refine ⟨⟨(i 0).val / 256, by show (i 0).val / 256 < 8; omega⟩, flush1_2 _, ?_⟩
    rw [mem_block1]
    obtain ⟨e0, e1, e2, e3, e4, e5⟩ := blocks1 ⟨(i 0).val / 256, by show (i 0).val / 256 < 8; omega⟩
    intro a
    match a with
    | ⟨0, _⟩ => show win1_2.index _ (0 : Fin 2) * 256 ≤ (i 0).val ∧ (i 0).val < win1_2.index _ (0 : Fin 2) * 256 + 256; rw [e4]; show (i 0).val / 256 * 256 ≤ _ ∧ _ < (i 0).val / 256 * 256 + 256; omega
    | ⟨1, _⟩ => show win1_2.index _ (1 : Fin 2) * 1024 ≤ (i 1).val ∧ (i 1).val < win1_2.index _ (1 : Fin 2) * 1024 + 1024; rw [e5]; omega

/-! ## Region 2: a row tile of main_arg2 times the whole of main_v2 -/

/-- The tile's product at an entry: the row of the left tile against the column of the right operand. -/
theorem tile2_apply (x0 : Vec Ideal S256x768 .f32) (x1 : Vec Ideal S768x1024 .bf16) (r : Fin 256) (c : Fin 1024) :
    k2_pay1 (F := Ideal) x0 x1 (ix2 r c) = ∑ k : Fin 768, x0 (ix2 r k) * x1 (ix2 k c) := by
  unfold k2_pay1
  rw [shapeCast_self]
  exact PlainMatmul.apply_zero (M := 256) (K := 768) (N := 1024) (φ₁ := .bf16) (φ₂ := .bf16) (truncf .bf16 x0 bitsLt_bf16_f32) x1 r c

/-- When the left tile holds rows 256·t … 256·t + 255 of A and the right operand is B, the tile's product at y is the
    product A·B at the array index i = (256·t + y₀, y₁). -/
theorem tile2_at (x0 : Vec Ideal S256x768 .f32) (x1 : Vec Ideal S768x1024 .bf16) (A : S2048x768.Idx → EReal) (B : S768x1024.Idx → EReal)
    (t : ℕ)
    (h0 : ∀ (r : Fin 256) (k : Fin 768) (n : Fin 2048), n.val = 256 * t + r.val → x0 (ix2 r k) = A (ix2 n k))
    (h1 : ∀ (k : Fin 768) (c : Fin 1024), x1 (ix2 k c) = B (ix2 k c))
    (y : S256x1024.Idx) (i : S2048x1024.Idx) (hi0 : (i 0).val = 256 * t + (y 0).val) (hi1 : (i 1).val = (y 1).val) :
    k2_pay1 (F := Ideal) x0 x1 y = mm (rc A) (rc B) (i 0) (i 1) := by
  obtain ⟨r, c, rfl⟩ : ∃ (r : Fin 256) (c : Fin 1024), y = ix2 r c := ⟨y 0, y 1, eq_ix2 y⟩
  obtain ⟨n, j, rfl⟩ : ∃ (n : Fin 2048) (j : Fin 1024), i = ix2 n j := ⟨i 0, i 1, eq_ix2 i⟩
  have ej : j = c := Fin.ext hi1
  subst ej
  rw [tile2_apply]
  show _ = ∑ k : Fin 768, A (ix2 n k) * B (ix2 k j)
  exact Finset.sum_congr rfl fun k _ => by rw [h0 r k n hi0, h1 k j]

/-- The block indices over the eight grid points: point t reads row block t of the left array and the whole right
    array, and writes row block t of the result. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem written2 (c : Dev nD) (t : Fin cfg2.N) :
    (dat2 V c).flushed 2 t = ((cfg2.win 2).blk t).view.read (Elt Ideal)
      (fun i => mm (rc (V c main_arg2)) (rc (V c main_v2)) (i 0) (i 1)) := by
  show (cfg2.win 2).cut (grid2.coords t) ((dat2 V c).after 2 t) = _
  rw [after2_2]
  unfold out2_2
  rw [View.canon_unit_zero zero_offsets]
  simp only [View.ld_unit_zero (S := S256x768) zero_offsets, View.ld_unit_zero (S := S768x1024) zero_offsets]
  obtain ⟨e0, e1, e2, e3, e4, e5⟩ := blocks2 t
  funext y
  show k2_pay1 (F := Ideal) (iblk2 V c 0 t) (iblk2 V c 1 t) y = mm (rc (V c main_arg2)) (rc (V c main_v2)) ((((cfg2.win 2).blk t).view.emb y) 0) ((((cfg2.win 2).blk t).view.emb y) 1)
  refine tile2_at _ _ _ _ t.val ?_ ?_ y _ ?_ ?_
  · intro r k n hn
    show V c main_arg2 (((cfg2.win 0).blk t).view.emb (ix2 r k)) = V c main_arg2 (ix2 n k)
    refine congrArg _ (funext fun a => Fin.ext ?_)
    match a with
    | ⟨0, _⟩ => show win2_0.index t (0 : Fin 2) * 256 + 1 * r.val = n.val; omega
    | ⟨1, _⟩ => show win2_0.index t (1 : Fin 2) * 768 + 1 * k.val = k.val; omega
  · intro k j
    show V c main_v2 (((cfg2.win 1).blk t).view.emb (ix2 k j)) = V c main_v2 (ix2 k j)
    refine congrArg _ (funext fun a => Fin.ext ?_)
    match a with
    | ⟨0, _⟩ => show win2_1.index t (0 : Fin 2) * 768 + 1 * k.val = k.val; omega
    | ⟨1, _⟩ => show win2_1.index t (1 : Fin 2) * 1024 + 1 * j.val = j.val; omega
  · show win2_2.index t (0 : Fin 2) * 256 + 1 * (y 0).val = 256 * t.val + (y 0).val; omega
  · show win2_2.index t (1 : Fin 2) * 1024 + 1 * (y 1).val = (y 1).val; omega

/-- An index lies in point t's result block iff each coordinate lies in the block's range. -/
theorem mem_block2 (t : Fin cfg2.N) (i : S2048x1024.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v6).slice (win2_2.rect t)).set ↔ _
  rw [View.set_slice_whole, Rect.mem_set_unit]
  exact Iff.rfl

/-- The eight row blocks cover the result array (row n lies in block n / 256), so after the region it holds the
    product of the two arrays the region found. -/
theorem product2 (c : Dev nD) : (dat2 V c).arrAt 2 cfg2.N = fun i => mm (rc (V c main_arg2)) (rc (V c main_v2)) (i 0) (i 1) :=
  (dat2 V c).arrAt_eq_of_cover 2 _ (fun t _ => written2 V c t) fun i => by
    have hi0 : (i 0).val < 2048 := (i 0).isLt
    have hi1 : (i 1).val < 1024 := (i 1).isLt
    refine ⟨⟨(i 0).val / 256, by show (i 0).val / 256 < 8; omega⟩, flush2_2 _, ?_⟩
    rw [mem_block2]
    obtain ⟨e0, e1, e2, e3, e4, e5⟩ := blocks2 ⟨(i 0).val / 256, by show (i 0).val / 256 < 8; omega⟩
    intro a
    match a with
    | ⟨0, _⟩ => show win2_2.index _ (0 : Fin 2) * 256 ≤ (i 0).val ∧ (i 0).val < win2_2.index _ (0 : Fin 2) * 256 + 256; rw [e4]; show (i 0).val / 256 * 256 ≤ _ ∧ _ < (i 0).val / 256 * 256 + 256; omega
    | ⟨1, _⟩ => show win2_2.index _ (1 : Fin 2) * 1024 ≤ (i 1).val ∧ (i 1).val < win2_2.index _ (1 : Fin 2) * 1024 + 1024; rw [e5]; omega

end Cert.KernelIdeal.Blocks

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.AttentionTile.lean ====
/-
  The attention region of the idealized kernel, one tile at a time.

  The grid is 8 × 8: point (hp, qi) stages the 256 × 128 tile of the projected queries at row block qi and column
  block hp (two heads' columns), and the 2048 × 128 column blocks hp of the projected keys and values. Each 128-wide tile
  is cut into its two 64-wide heads. For one head: the scores are the tile's query rows against ALL key rows (the keys
  transposed, a plain product into a zero accumulator) times the literal 1/8; each row of scores is shifted by its
  maximum, exponentiated, and divided by the row's sum; the weights (a change of float format is the identity) multiply the
  head's value columns. The two heads' 256 × 64 results are put side by side and written back at row block qi, column
  block hp. Read at an array index (n, d) this is the context of the shared specification with the scores scaled after
  the dot product, at head d / 64. The 64 blocks tile the result array.
-/
import proofs.«106647_j59322088292867_2_alg».proof.Proof.Gen.KernelIdeal.Frame
import proofs.«106647_j59322088292867_2_alg».proof.Proof.AttentionSpec
import proofs.«106647_j59322088292867_2_alg».proof.Proof.LibPlainMatmul
import proofs.«106647_j59322088292867_2_alg».proof.Proof.LibMergedAxes
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen AttentionSpec

/-! ## One head of a tile, as vector operations -/

/-- The scores of a tile's 256 query rows against the 2048 key rows, scaled by the literal 1/8. -/
def tileScores (qh : FVec Ideal S256x64 .bf16) (kh : FVec Ideal S2048x64 .bf16) : FVec Ideal S256x2048 .f32 :=
  mulf (matmul dot_S256x64_S64x2048_S256x2048_1_0_0_1_n_n none qh (transpose S64x2048 [1, 0] kh transposes_S2048x64_p1_0_S64x2048) (constant S256x2048 .f32 0x00000000#32))
    (broadcast S256x2048 (Scalar.ofBits .f32 0x3E000000#32 : Ideal .f32))

/-- Each row shifted by its maximum and exponentiated. -/
def tileExp (s : FVec Ideal S256x2048 .f32) : FVec Ideal S256x2048 .f32 :=
  exp (subf s (broadcastTo S256x2048 (shapeCast S256x1 (multiReduction .maximumf [1] S256 s 0xFF800000#32 reduces_S256x2048_S256 (.inl rfl) rfl) shapeCasts_S256_S256x1) broadcasts_S256x1_S256x2048))

/-- Each row divided by its sum. -/
def tileWeights (e : FVec Ideal S256x2048 .f32) : FVec Ideal S256x2048 .f32 :=
  divf e (broadcastTo S256x2048 (shapeCast S256x1 (multiReduction .add [1] S256 e 0x00000000#32 reduces_S256x2048_S256 (.inl rfl) rfl) shapeCasts_S256_S256x1) broadcasts_S256x1_S256x2048)

/-- One head: the weights of the tile's scores times the head's value columns. -/
def tileHead (qh : FVec Ideal S256x64 .bf16) (kh vh : FVec Ideal S2048x64 .bf16) : FVec Ideal S256x64 .f32 :=
  matmul dot_S256x2048_S2048x64_S256x64_1_0_0_1_n_n none (truncf .bf16 (tileWeights (tileExp (tileScores qh kh))) bitsLt_bf16_f32) vh (constant S256x64 .f32 0x00000000#32)

/-- The f32 word 0xFF800000 is -∞. -/
theorem neg_inf_f32 : Ideal.ofBits .f32 0xFF800000#32 = ⊥ := by simp [Ideal.ofBits, Ideal.ieee]

/-- A score: the dot product of query row r and key row m over the head's 64 columns, times 1/8. -/
theorem tileScores_apply (qh : FVec Ideal S256x64 .bf16) (kh : FVec Ideal S2048x64 .bf16) (r : Fin 256) (m : Fin 2048) :
    tileScores qh kh (ix2 r m) = (∑ c : Fin 64, qh (ix2 r c) * kh (ix2 m c)) * Ideal.ofBits .f32 0x3E000000#32 := by
  unfold tileScores
  refine (mulf_apply _ _ _).trans ?_
  refine congrArg₂ (· * ·) ?_ rfl
  refine (PlainMatmul.apply_zero (M := 256) (K := 64) (N := 2048) (φ₁ := .bf16) (φ₂ := .bf16) qh _ r m).trans ?_
  exact Finset.sum_congr rfl fun c _ => by rw [transpose_ix2_apply]

/-- A row's maximum: the fold of max from -∞ over the row. -/
theorem rowMax_apply (s : FVec Ideal S256x2048 .f32) (h : S256x2048.Reduces [1] S256) (hφ : FKind.Formats .f32)
    (hacc : (0xFF800000#32 : BitVec 32) = FKind.maximumf.neutral .f32 hφ) (r : Fin 256) :
    multiReduction .maximumf [1] S256 s 0xFF800000#32 h hφ hacc (ix1 r) = rowMax (fun m => s (ix2 r m)) := by
  refine (Ideal.multiReduction_maximumf_single s _ h hφ hacc (ix1 r)).trans ?_
  unfold rowMax
  show Finset.fold max (Ideal.ofBits .f32 0xFF800000#32) (s ∘ h.lift (ix1 r)) (Finset.univ : Finset (Fin 2048)) = _
  rw [neg_inf_f32]
  refine congrArg (fun f => Finset.fold max ⊥ f (Finset.univ : Finset (Fin 2048))) (funext fun m => congrArg s ?_)
  funext a
  apply Fin.ext
  match a with
  | ⟨0, _⟩ => rfl
  | ⟨1, _⟩ => rfl

/-- A row's sum. -/
theorem rowSum_apply (e : FVec Ideal S256x2048 .f32) (h : S256x2048.Reduces [1] S256) (hφ : FKind.Formats .f32)
    (hacc : (0x00000000#32 : BitVec 32) = FKind.add.neutral .f32 hφ) (r : Fin 256) :
    multiReduction .add [1] S256 e 0x00000000#32 h hφ hacc (ix1 r) = ∑ m : Fin 2048, e (ix2 r m) := by
  refine (Ideal.multiReduction_add_single e _ h hφ hacc (ix1 r)).trans ?_
  show ∑ m : Fin 2048, e (h.lift (ix1 r) m) = _
  refine Finset.sum_congr rfl fun m _ => congrArg e ?_
  funext a
  apply Fin.ext
  match a with
  | ⟨0, _⟩ => rfl
  | ⟨1, _⟩ => rfl

theorem tileExp_apply (s : FVec Ideal S256x2048 .f32) (r : Fin 256) (m : Fin 2048) :
    tileExp s (ix2 r m) = Ideal.exp (s (ix2 r m) - rowMax (fun m' => s (ix2 r m'))) := by
  unfold tileExp
  refine congrArg Ideal.exp (congrArg (fun z => s (ix2 r m) - z) ?_)
  refine (Cert.LibMergedAxes.broadcastTo_a1_ab_apply _ _ r m).trans ?_
  refine (Cert.LibMergedAxes.shapeCast_a_a1_apply _ _ r 0).trans ?_
  exact rowMax_apply s _ _ _ r

theorem tileWeights_apply (e : FVec Ideal S256x2048 .f32) (r : Fin 256) (m : Fin 2048) :
    tileWeights e (ix2 r m) = Ideal.div (e (ix2 r m)) (∑ m' : Fin 2048, e (ix2 r m')) := by
  unfold tileWeights
  refine congrArg (fun z => Ideal.div (e (ix2 r m)) z) ?_
  refine (Cert.LibMergedAxes.broadcastTo_a1_ab_apply _ _ r m).trans ?_
  refine (Cert.LibMergedAxes.shapeCast_a_a1_apply _ _ r 0).trans ?_
  exact rowSum_apply e _ _ _ r

/-- One head at an entry: the softmax weights of row r's scores against the head's value column c. -/
theorem tileHead_apply (qh : FVec Ideal S256x64 .bf16) (kh vh : FVec Ideal S2048x64 .bf16) (r : Fin 256) (c : Fin 64) :
    tileHead qh kh vh (ix2 r c)
      = ∑ m : Fin 2048, weight (fun m' => (∑ c' : Fin 64, qh (ix2 r c') * kh (ix2 m' c')) * Ideal.ofBits .f32 0x3E000000#32) m * vh (ix2 m c) := by
  unfold tileHead
  refine (PlainMatmul.apply_zero (M := 256) (K := 2048) (N := 64) (φ₁ := .bf16) (φ₂ := .bf16) _ vh r c).trans ?_
  refine Finset.sum_congr rfl fun m _ => congrArg (· * vh (ix2 m c)) ?_
  show tileWeights (tileExp (tileScores qh kh)) (ix2 r m) = _
  rw [tileWeights_apply]
  unfold weight
  simp only [tileExp_apply, tileScores_apply]

/-! ## The tile the body stores -/

/-- The first head of a tile is computed from the tile's first 64 columns. -/
theorem head0_eq (x0 : Vec Ideal S256x128 .bf16) (x1 x2 : Vec Ideal S2048x128 .bf16) :
    k3_pay5 (F := Ideal) x0 x1 x2 = tileHead (extractStridedSlice S256x64 ![0, 0] x0 slices_S256x128_o0_0_S256x64)
      (extractStridedSlice S2048x64 ![0, 0] x1 slices_S2048x128_o0_0_S2048x64)
      (extractStridedSlice S2048x64 ![0, 0] x2 slices_S2048x128_o0_0_S2048x64) := by
  unfold k3_pay5 k3_pay2 k3_pay3 k3_pay4
  simp only [shapeCast_self]
  rfl

/-- The second head from the columns 64 … 127. -/
theorem head1_eq (x0 : Vec Ideal S256x128 .bf16) (x1 x2 : Vec Ideal S2048x128 .bf16) :
    k3_pay6 (F := Ideal) x0 x1 x2 = tileHead (extractStridedSlice S256x64 ![0, 64] x0 slices_S256x128_o0_64_S256x64)
      (extractStridedSlice S2048x64 ![0, 64] x1 slices_S2048x128_o0_64_S2048x64)
      (extractStridedSlice S2048x64 ![0, 64] x2 slices_S2048x128_o0_64_S2048x64) := by
  unfold k3_pay6 k3_pay2 k3_pay3 k3_pay4
  simp only [shapeCast_self]
  rfl

/-- The two heads side by side: a column below 64 reads the first head. -/
theorem stored_left (a b : FVec Ideal S256x64 .f32) (r : Fin 256) (l : Fin 128) (hl : l.val < 64) :
    k3_pay1 (F := Ideal) a b (ix2 r l) = a (ix2 r ⟨l.val, hl⟩) := by
  unfold k3_pay1
  exact concatenate_pair_apply_left (1 : Fin 2) a b concatenates_S256x64_S256x64_S256x128_d1 (ix2 r l) rfl (ix2 r ⟨l.val, hl⟩)
    (fun b => by match b with | ⟨0, _⟩ => rfl | ⟨1, _⟩ => rfl)

/-- A column from 64 on reads the second head, 64 columns to the left. -/
theorem stored_right (a b : FVec Ideal S256x64 .f32) (r : Fin 256) (l : Fin 128) (hl : 64 ≤ l.val) :
    k3_pay1 (F := Ideal) a b (ix2 r l) = b (ix2 r ⟨l.val - 64, by have := l.isLt; omega⟩) := by
  unfold k3_pay1
  exact concatenate_pair_apply_right (1 : Fin 2) a b concatenates_S256x64_S256x64_S256x128_d1 (ix2 r l) rfl rfl (ix2 r ⟨l.val - 64, by have := l.isLt; omega⟩)
    (fun b hb => by match b with | ⟨0, _⟩ => rfl | ⟨1, _⟩ => exact absurd rfl hb)
    (by show (l.val - 64) + 64 = l.val; omega)

/-- THE TILE AT AN ARRAY INDEX. When the staged tiles are the blocks (qi, hp) of QP and the column blocks hp of KP and VP,
    the stored tile at y is the specification's context at the array index i = (256·qi + y₀, 128·hp + y₁): the head is
    i₁ / 64 = 2·hp or 2·hp + 1 according to the half y₁ lies in, and that head's 64 columns are the half's columns. -/
theorem attn_at (x0 : Vec Ideal S256x128 .bf16) (x1 x2 : Vec Ideal S2048x128 .bf16) (QP KP VP : S2048x1024.Idx → EReal) (hp qi : ℕ)
    (h0 : ∀ (r : Fin 256) (l : Fin 128) (n : Fin 2048) (d : Fin 1024), n.val = 256 * qi + r.val → d.val = 128 * hp + l.val → x0 (ix2 r l) = QP (ix2 n d))
    (h1 : ∀ (m : Fin 2048) (l : Fin 128) (d : Fin 1024), d.val = 128 * hp + l.val → x1 (ix2 m l) = KP (ix2 m d))
    (h2 : ∀ (m : Fin 2048) (l : Fin 128) (d : Fin 1024), d.val = 128 * hp + l.val → x2 (ix2 m l) = VP (ix2 m d))
    (y : S256x128.Idx) (i : S2048x1024.Idx) (hi0 : (i 0).val = 256 * qi + (y 0).val) (hi1 : (i 1).val = 128 * hp + (y 1).val) :
    k3_pay1 (F := Ideal) (k3_pay5 x0 x1 x2) (k3_pay6 x0 x1 x2) y = context (scoreAfter (rc QP) (rc KP)) (rc VP) (i 0) (i 1) := by
  obtain ⟨r, l, rfl⟩ : ∃ (r : Fin 256) (l : Fin 128), y = ix2 r l := ⟨y 0, y 1, eq_ix2 y⟩
  obtain ⟨n, d, rfl⟩ : ∃ (n : Fin 2048) (d : Fin 1024), i = ix2 n d := ⟨i 0, i 1, eq_ix2 i⟩
  have hn : n.val = 256 * qi + r.val := hi0
  have hd : d.val = 128 * hp + l.val := hi1
  have hlt : l.val < 128 := l.isLt
  show _ = ∑ m : Fin 2048, weight (scoreAfter (rc QP) (rc KP) (headOf d) n) m * VP (ix2 m d)
  by_cases hl : l.val < 64
  · rw [stored_left _ _ r l hl, head0_eq, tileHead_apply]
    have hs : (fun m' : Fin 2048 => (∑ c' : Fin 64, extractStridedSlice S256x64 ![0, 0] x0 slices_S256x128_o0_0_S256x64 (ix2 r c')
          * extractStridedSlice S2048x64 ![0, 0] x1 slices_S2048x128_o0_0_S2048x64 (ix2 m' c')) * Ideal.ofBits .f32 0x3E000000#32)
        = scoreAfter (rc QP) (rc KP) (headOf d) n := by
      funext m'
      unfold scoreAfter
      refine congrArg (· * _) (Finset.sum_congr rfl fun c' _ => ?_)
      have hc : c'.val < 64 := c'.isLt
      rw [slice2_axis1_eq 0 x0, slice2_axis1_eq 0 x1]
      rw [h0 r _ n (col (headOf d) c') hn (by show 64 * (d.val / 64) + c'.val = 128 * hp + (0 + c'.val); omega),
        h1 m' _ (col (headOf d) c') (by show 64 * (d.val / 64) + c'.val = 128 * hp + (0 + c'.val); omega)]
    rw [hs]
    refine Finset.sum_congr rfl fun m _ => congrArg (fun z => weight (scoreAfter (rc QP) (rc KP) (headOf d) n) m * z) ?_
    rw [slice2_axis1_eq 0 x2]
    exact h2 m _ d (by show d.val = 128 * hp + (0 + l.val); omega)
  · have hl' : 64 ≤ l.val := Nat.le_of_not_lt hl
    rw [stored_right _ _ r l hl', head1_eq, tileHead_apply]
    have hs : (fun m' : Fin 2048 => (∑ c' : Fin 64, extractStridedSlice S256x64 ![0, 64] x0 slices_S256x128_o0_64_S256x64 (ix2 r c')
          * extractStridedSlice S2048x64 ![0, 64] x1 slices_S2048x128_o0_64_S2048x64 (ix2 m' c')) * Ideal.ofBits .f32 0x3E000000#32)
        = scoreAfter (rc QP) (rc KP) (headOf d) n := by
      funext m'
      unfold scoreAfter
      refine congrArg (· * _) (Finset.sum_congr rfl fun c' _ => ?_)
      have hc : c'.val < 64 := c'.isLt
      rw [slice2_axis1_eq 64 x0, slice2_axis1_eq 64 x1]
      rw [h0 r _ n (col (headOf d) c') hn (by show 64 * (d.val / 64) + c'.val = 128 * hp + (64 + c'.val); omega),
        h1 m' _ (col (headOf d) c') (by show 64 * (d.val / 64) + c'.val = 128 * hp + (64 + c'.val); omega)]
    rw [hs]
    refine Finset.sum_congr rfl fun m _ => congrArg (fun z => weight (scoreAfter (rc QP) (rc KP) (headOf d) n) m * z) ?_
    rw [slice2_axis1_eq 64 x2]
    exact h2 m _ d (by show d.val = 128 * hp + (64 + (l.val - 64)); omega)

/-! ## From the 64 tiles to the array -/

theorem zero_offsets3 : (![0, 0] : Fin 2 → Nat) = fun _ => 0 := funext fun a => by fin_cases a <;> rfl

variable (V : (c : Dev nD) → (b : Ref sig .tc) → Buf (Elt Ideal) ((c : Thread nD τ).loc b))

/-- The block indices over the 64 grid points: point t = 8·hp + qi reads query block (qi, hp) and the key and value
    column blocks hp, and writes result block (qi, hp). -/
theorem blocks3 : ∀ t : Fin cfg3.N, win3_0.index t (0 : Fin 2) = t.val % 8 ∧ win3_0.index t (1 : Fin 2) = t.val / 8
    ∧ win3_1.index t (0 : Fin 2) = 0 ∧ win3_1.index t (1 : Fin 2) = t.val / 8
    ∧ win3_2.index t (0 : Fin 2) = 0 ∧ win3_2.index t (1 : Fin 2) = t.val / 8
    ∧ win3_3.index t (0 : Fin 2) = t.val % 8 ∧ win3_3.index t (1 : Fin 2) = t.val / 8 :=
  (by decide +kernel : ∀ t : Fin grid3.N, _)

/-- What point t writes back is block t of the context of the three arrays the region found. -/
theorem written3 (c : Dev nD) (t : Fin cfg3.N) :
    (dat3 V c).flushed 3 t = ((cfg3.win 3).blk t).view.read (Elt Ideal)
      (fun i => context (scoreAfter (rc (V c main_v4)) (rc (V c main_v5))) (rc (V c main_v6)) (i 0) (i 1)) := by
  show (cfg3.win 3).cut (grid3.coords t) ((dat3 V c).after 3 t) = _
  rw [after3_3]
  unfold out3_3
  rw [View.canon_unit_zero zero_offsets3]
  simp only [View.ld_unit_zero (S := S256x128) zero_offsets3, View.ld_unit_zero (S := S2048x128) zero_offsets3]
  obtain ⟨e0, e1, e2, e3, e4, e5, e6, e7⟩ := blocks3 t
  funext y
  show k3_pay1 (F := Ideal) (k3_pay5 (iblk3 V c 0 t) (iblk3 V c 1 t) (iblk3 V c 2 t)) (k3_pay6 (iblk3 V c 0 t) (iblk3 V c 1 t) (iblk3 V c 2 t)) y
    = context (scoreAfter (rc (V c main_v4)) (rc (V c main_v5))) (rc (V c main_v6)) ((((cfg3.win 3).blk t).view.emb y) 0) ((((cfg3.win 3).blk t).view.emb y) 1)
  refine attn_at _ _ _ _ _ _ (t.val / 8) (t.val % 8) ?_ ?_ ?_ y _ ?_ ?_
  · intro r l n d hn hd
    show V c main_v4 (((cfg3.win 0).blk t).view.emb (ix2 r l)) = V c main_v4 (ix2 n d)
    refine congrArg _ (funext fun a => Fin.ext ?_)
    match a with
    | ⟨0, _⟩ => show win3_0.index t (0 : Fin 2) * 256 + 1 * r.val = n.val; omega
    | ⟨1, _⟩ => show win3_0.index t (1 : Fin 2) * 128 + 1 * l.val = d.val; omega
  · intro m l d hd
    show V c main_v5 (((cfg3.win 1).blk t).view.emb (ix2 m l)) = V c main_v5 (ix2 m d)
    refine congrArg _ (funext fun a => Fin.ext ?_)
    match a with
    | ⟨0, _⟩ => show win3_1.index t (0 : Fin 2) * 2048 + 1 * m.val = m.val; omega
    | ⟨1, _⟩ => show win3_1.index t (1 : Fin 2) * 128 + 1 * l.val = d.val; omega
  · intro m l d hd
    show V c main_v6 (((cfg3.win 2).blk t).view.emb (ix2 m l)) = V c main_v6 (ix2 m d)
    refine congrArg _ (funext fun a => Fin.ext ?_)
    match a with
    | ⟨0, _⟩ => show win3_2.index t (0 : Fin 2) * 2048 + 1 * m.val = m.val; omega
    | ⟨1, _⟩ => show win3_2.index t (1 : Fin 2) * 128 + 1 * l.val = d.val; omega
  · show win3_3.index t (0 : Fin 2) * 256 + 1 * (y 0).val = 256 * (t.val % 8) + (y 0).val; omega
  · show win3_3.index t (1 : Fin 2) * 128 + 1 * (y 1).val = 128 * (t.val / 8) + (y 1).val; omega

/-- An index lies in point t's result block iff each coordinate lies in the block's range. -/
theorem mem_block3 (t : Fin cfg3.N) (i : S2048x1024.Idx) :
    i ∈ ((cfg3.win 3).blk t).view.set ↔ ∀ a : Fin 2, win3_3.index t a * S256x128.size a ≤ (i a).val ∧ (i a).val < win3_3.index t a * S256x128.size a + S256x128.size a := by
  show i ∈ ((View.whole main_v7).slice (win3_3.rect t)).set ↔ _
  rw [View.set_slice_whole, Rect.mem_set_unit]
  exact Iff.rfl

/-- The 64 blocks cover the result array (index (n, d) lies in the block of point 8·(d / 128) + n / 256), so after the
    region it holds the context of the three arrays the region found. -/
theorem context_result (c : Dev nD) : (dat3 V c).arrAt 3 cfg3.N
    = fun i => context (scoreAfter (rc (V c main_v4)) (rc (V c main_v5))) (rc (V c main_v6)) (i 0) (i 1) :=
  (dat3 V c).arrAt_eq_of_cover 3 _ (fun t _ => written3 V c t) fun i => by
    have hi0 : (i 0).val < 2048 := (i 0).isLt
    have hi1 : (i 1).val < 1024 := (i 1).isLt
    have ht : (i 1).val / 128 * 8 + (i 0).val / 256 < 64 := by omega
    refine ⟨⟨(i 1).val / 128 * 8 + (i 0).val / 256, ht⟩, flush3_3 _, ?_⟩
    rw [mem_block3]
    obtain ⟨e0, e1, e2, e3, e4, e5, e6, e7⟩ := blocks3 ⟨(i 1).val / 128 * 8 + (i 0).val / 256, ht⟩
    intro a
    match a with
    | ⟨0, _⟩ => show win3_3.index _ (0 : Fin 2) * 256 ≤ (i 0).val ∧ (i 0).val < win3_3.index _ (0 : Fin 2) * 256 + 256; rw [e6]; show ((i 1).val / 128 * 8 + (i 0).val / 256) % 8 * 256 ≤ _ ∧ _ < ((i 1).val / 128 * 8 + (i 0).val / 256) % 8 * 256 + 256; omega
    | ⟨1, _⟩ => show win3_3.index _ (1 : Fin 2) * 128 ≤ (i 1).val ∧ (i 1).val < win3_3.index _ (1 : Fin 2) * 128 + 128; rw [e7]; show ((i 1).val / 128 * 8 + (i 0).val / 256) / 8 * 128 ≤ _ ∧ _ < ((i 1).val / 128 * 8 + (i 0).val / 256) / 8 * 128 + 128; omega

end Cert.KernelIdeal.Blocks

end
-- ==== Proof.OutputLayer.lean ====
/-
  The last region of the idealized kernel: the context times the output matrix, plus the bias row.

  The grid has eight points. Point t stages rows 256·t … 256·t + 255 of the context array, the whole weight array and
  the one-row bias array, forms the tile's product (exact on the extended reals: a change of float format is the
  identity, the accumulator starts at zero), adds the bias row to every row of the tile, and writes the tile back as row
  block t of the result. The eight row blocks tile the result, so after the region the result at (n, j) is
  Σ_d context(n, d) · weight(d, j) + bias(0, j), for whatever three arrays the region found.
-/
import proofs.«106647_j59322088292867_2_alg».proof.Proof.Gen.KernelIdeal.Frame
import proofs.«106647_j59322088292867_2_alg».proof.Proof.AttentionSpec
import proofs.«106647_j59322088292867_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen AttentionSpec

/-- The zero offsets of a whole-buffer access. -/
theorem zero_offsets4 : (![0, 0] : Fin 2 → Nat) = fun _ => 0 := funext fun a => by fin_cases a <;> rfl

/-- The tile at an entry: the row of the left tile against the column of the weights, plus the bias of that column. -/
theorem dense_apply (x0 : Vec Ideal S256x1024 .f32) (x1 : Vec Ideal S1024x1024 .bf16) (x2 : Vec Ideal S1x1024 .f32) (r : Fin 256) (c : Fin 1024) :
    k4_pay1 (F := Ideal) x0 x1 x2 (ix2 r c) = (∑ k : Fin 1024, x0 (ix2 r k) * x1 (ix2 k c)) + x2 (ix2 (0 : Fin 1) c) := by
  unfold k4_pay1
  simp only [shapeCast_self]
  refine (addf_apply _ _ _).trans ?_
  refine congrArg₂ (· + ·) ?_ ?_
  · exact PlainMatmul.apply_zero (M := 256) (K := 1024) (N := 1024) (φ₁ := .bf16) (φ₂ := .bf16) (truncf .bf16 x0 bitsLt_bf16_f32) x1 r c
  · exact broadcastTo_1b_ab_apply x2 _ r c

/-- With the left tile rows 256·t … of A, the weights B and the bias row C, the tile at y is (A·B + C) at the array
    index i = (256·t + y₀, y₁). -/
theorem dense_at (x0 : Vec Ideal S256x1024 .f32) (x1 : Vec Ideal S1024x1024 .bf16) (x2 : Vec Ideal S1x1024 .f32)
    (A : S2048x1024.Idx → EReal) (B : S1024x1024.Idx → EReal) (C : S1x1024.Idx → EReal) (t : ℕ)
    (h0 : ∀ (r : Fin 256) (k : Fin 1024) (n : Fin 2048), n.val = 256 * t + r.val → x0 (ix2 r k) = A (ix2 n k))
    (h1 : ∀ (k : Fin 1024) (c : Fin 1024), x1 (ix2 k c) = B (ix2 k c))
    (h2 : ∀ c : Fin 1024, x2 (ix2 (0 : Fin 1) c) = C (ix2 (0 : Fin 1) c))
    (y : S256x1024.Idx) (i : S2048x1024.Idx) (hi0 : (i 0).val = 256 * t + (y 0).val) (hi1 : (i 1).val = (y 1).val) :
    k4_pay1 (F := Ideal) x0 x1 x2 y = mm (rc A) (rc B) (i 0) (i 1) + C (ix2 (0 : Fin 1) (i 1)) := by
  obtain ⟨r, c, rfl⟩ : ∃ (r : Fin 256) (c : Fin 1024), y = ix2 r c := ⟨y 0, y 1, eq_ix2 y⟩
  obtain ⟨n, j, rfl⟩ : ∃ (n : Fin 2048) (j : Fin 1024), i = ix2 n j := ⟨i 0, i 1, eq_ix2 i⟩
  have ej : j = c := Fin.ext hi1
  subst ej
  rw [dense_apply]
  show _ = (∑ k : Fin 1024, A (ix2 n k) * B (ix2 k j)) + C (ix2 (0 : Fin 1) j)
  rw [h2 j]
  exact congrArg (· + _) (Finset.sum_congr rfl fun k _ => by rw [h0 r k n hi0, h1 k j])

variable (V : (c : Dev nD) → (b : Ref sig .tc) → Buf (Elt Ideal) ((c : Thread nD τ).loc b))

/-- The block indices over the eight grid points: row block t of the context and of the result, the whole weight and
    bias arrays. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of (context · weights + bias row) of the arrays the region found. -/
theorem written4 (c : Dev nD) (t : Fin cfg4.N) :
    (dat4 V c).flushed 3 t = ((cfg4.win 3).blk t).view.read (Elt Ideal)
      (fun i => mm (rc (V c main_v7)) (rc (V c main_v3)) (i 0) (i 1) + (V c main_v8 : S1x1024.Idx → EReal) (ix2 (0 : Fin 1) (i 1))) := by
  show (cfg4.win 3).cut (grid4.coords t) ((dat4 V c).after 3 t) = _
  rw [after4_3]
  unfold out4_3
  rw [View.canon_unit_zero zero_offsets4]
  simp only [View.ld_unit_zero (S := S256x1024) zero_offsets4, View.ld_unit_zero (S := S1024x1024) zero_offsets4, View.ld_unit_zero (S := S1x1024) zero_offsets4]
  obtain ⟨e0, e1, e2, e3, e4, e5, e6, e7⟩ := blocks4 t
  funext y
  show k4_pay1 (F := Ideal) (iblk4 V c 0 t) (iblk4 V c 1 t) (iblk4 V c 2 t) y
    = mm (rc (V c main_v7)) (rc (V c main_v3)) ((((cfg4.win 3).blk t).view.emb y) 0) ((((cfg4.win 3).blk t).view.emb y) 1)
      + (V c main_v8 : S1x1024.Idx → EReal) (ix2 (0 : Fin 1) ((((cfg4.win 3).blk t).view.emb y) 1))
  refine dense_at _ _ _ _ _ _ t.val ?_ ?_ ?_ y _ ?_ ?_
  · intro r k n hn
    show V c main_v7 (((cfg4.win 0).blk t).view.emb (ix2 r k)) = V c main_v7 (ix2 n k)
    refine congrArg _ (funext fun a => Fin.ext ?_)
    match a with
    | ⟨0, _⟩ => show win4_0.index t (0 : Fin 2) * 256 + 1 * r.val = n.val; omega
    | ⟨1, _⟩ => show win4_0.index t (1 : Fin 2) * 1024 + 1 * k.val = k.val; omega
  · intro k j
    show V c main_v3 (((cfg4.win 1).blk t).view.emb (ix2 k j)) = V c main_v3 (ix2 k j)
    refine congrArg _ (funext fun a => Fin.ext ?_)
    match a with
    | ⟨0, _⟩ => show win4_1.index t (0 : Fin 2) * 1024 + 1 * k.val = k.val; omega
    | ⟨1, _⟩ => show win4_1.index t (1 : Fin 2) * 1024 + 1 * j.val = j.val; omega
  · intro j
    show V c main_v8 (((cfg4.win 2).blk t).view.emb (ix2 (0 : Fin 1) j)) = V c main_v8 (ix2 (0 : Fin 1) j)
    refine congrArg _ (funext fun a => Fin.ext ?_)
    match a with
    | ⟨0, _⟩ => show win4_2.index t (0 : Fin 2) * 1 + 1 * 0 = 0; omega
    | ⟨1, _⟩ => show win4_2.index t (1 : Fin 2) * 1024 + 1 * j.val = j.val; omega
  · show win4_3.index t (0 : Fin 2) * 256 + 1 * (y 0).val = 256 * t.val + (y 0).val; omega
  · show win4_3.index t (1 : Fin 2) * 1024 + 1 * (y 1).val = (y 1).val; omega

/-- An index lies in point t's result block iff each coordinate lies in the block's range. -/
theorem mem_block4 (t : Fin cfg4.N) (i : S2048x1024.Idx) :
    i ∈ ((cfg4.win 3).blk t).view.set ↔ ∀ a : Fin 2, win4_3.index t a * S256x1024.size a ≤ (i a).val ∧ (i a).val < win4_3.index t a * S256x1024.size a + S256x1024.size a := by
  show i ∈ ((View.whole main_v9).slice (win4_3.rect t)).set ↔ _
  rw [View.set_slice_whole, Rect.mem_set_unit]
  exact Iff.rfl

/-- The eight row blocks cover the result array, so after the region it holds context · weights + bias row. -/
theorem dense_result (c : Dev nD) : (dat4 V c).arrAt 3 cfg4.N
    = fun i => mm (rc (V c main_v7)) (rc (V c main_v3)) (i 0) (i 1) + (V c main_v8 : S1x1024.Idx → EReal) (ix2 (0 : Fin 1) (i 1)) :=
  (dat4 V c).arrAt_eq_of_cover 3 _ (fun t _ => written4 V c t) fun i => by
    have hi0 : (i 0).val < 2048 := (i 0).isLt
    have hi1 : (i 1).val < 1024 := (i 1).isLt
    refine ⟨⟨(i 0).val / 256, by show (i 0).val / 256 < 8; omega⟩, flush4_3 _, ?_⟩
    rw [mem_block4]
    obtain ⟨e0, e1, e2, e3, e4, e5, e6, e7⟩ := blocks4 ⟨(i 0).val / 256, by show (i 0).val / 256 < 8; omega⟩
    intro a
    match a with
    | ⟨0, _⟩ => show win4_3.index _ (0 : Fin 2) * 256 ≤ (i 0).val ∧ (i 0).val < win4_3.index _ (0 : Fin 2) * 256 + 256; rw [e6]; show (i 0).val / 256 * 256 ≤ _ ∧ _ < (i 0).val / 256 * 256 + 256; omega
    | ⟨1, _⟩ => show win4_3.index _ (1 : Fin 2) * 1024 ≤ (i 1).val ∧ (i 1).val < win4_3.index _ (1 : Fin 2) * 1024 + 1024; rw [e7]; omega

end Cert.KernelIdeal.Blocks

end
-- ==== Proof.KernelValue.lean ====
/-
  The idealized kernel's result as one function of the eight arguments.

  Region by region, with each region's entry contents read back to the launch memory: the three projection regions leave
  q·Wq, k·Wk and v·Wv (the host's casts of the weights are the identity on the extended reals); the attention region,
  entered with those three arrays, leaves the context with the scores scaled after the dot product; the host reshapes the
  bias to one row; the last region leaves context · Wo + bias. So the result array is the specification's output with
  the scores scaled afterwards.
-/
import proofs.«106647_j59322088292867_2_alg».proof.Proof.Boundaries
import proofs.«106647_j59322088292867_2_alg».proof.Proof.Projections
import proofs.«106647_j59322088292867_2_alg».proof.Proof.AttentionTile
import proofs.«106647_j59322088292867_2_alg».proof.Proof.OutputLayer

noncomputable section

open Idealize.ShloMosaic Idealize.ShloMosaic.TcCoe Idealize.SL.Sem Idealize.ShloMosaic.ValueIdx

namespace Cert.KernelIdeal.Result

open Cert.KernelIdeal Cert.KernelIdeal.Gen AttentionSpec Cert.KernelIdeal.Blocks Cert.KernelIdeal.Boundaries

variable (m : (ℓ : Loc nD τ sig) → Buf (Elt Ideal) ℓ) (ρ : Dev nD → PrngReg) (c : Dev nD)

/-- The attention region is entered with the projected queries q·Wq. -/
theorem queries : rc (V4 m ρ c main_v4 : S2048x1024.Idx → EReal)
    = mm (rc (m ((c : Thread nD τ).loc main_arg0) : S2048x1024.Idx → EReal)) (rc (m ((c : Thread nD τ).loc main_arg3) : S1024x1024.Idx → EReal)) := by
  funext n d
  show (V4 m ρ c main_v4 : S2048x1024.Idx → EReal) (ix2 n d) = _
  rw [entry3_q, product0, entry0_left]
  show mm _ (rc (V1 m ρ c main_v0 : S1024x1024.Idx → EReal)) n d = _
  rw [entry0_right]

/-- … the projected keys k·Wk. -/
theorem keys : rc (V4 m ρ c main_v5 : S2048x1024.Idx → EReal)
    = mm (rc (m ((c : Thread nD τ).loc main_arg1) : S2048x768.Idx → EReal)) (rc (m ((c : Thread nD τ).loc main_arg4) : S768x1024.Idx → EReal)) := by
  funext n d
  show (V4 m ρ c main_v5 : S2048x1024.Idx → EReal) (ix2 n d) = _
  rw [entry3_k, product1, entry1_left]
  show mm _ (rc (V2 m ρ c main_v1 : S768x1024.Idx → EReal)) n d = _
  rw [entry1_right]

/-- … and the projected values v·Wv. -/
theorem values : rc (V4 m ρ c main_v6 : S2048x1024.Idx → EReal)
    = mm (rc (m ((c : Thread nD τ).loc main_arg2) : S2048x768.Idx → EReal)) (rc (m ((c : Thread nD τ).loc main_arg5) : S768x1024.Idx → EReal)) := by
  funext n d
  show (V4 m ρ c main_v6 : S2048x1024.Idx → EReal) (ix2 n d) = _
  rw [entry3_v, product2, entry2_left]
  show mm _ (rc (V3 m ρ c main_v2 : S768x1024.Idx → EReal)) n d = _
  rw [entry2_right]

/-- The last region is entered with the context of those three arrays. -/
theorem context_in : rc (V6 m ρ c main_v7 : S2048x1024.Idx → EReal)
    = context (scoreAfter (mm (rc (m ((c : Thread nD τ).loc main_arg0) : S2048x1024.Idx → EReal)) (rc (m ((c : Thread nD τ).loc main_arg3) : S1024x1024.Idx → EReal)))
        (mm (rc (m ((c : Thread nD τ).loc main_arg1) : S2048x768.Idx → EReal)) (rc (m ((c : Thread nD τ).loc main_arg4) : S768x1024.Idx → EReal))))
      (mm (rc (m ((c : Thread nD τ).loc main_arg2) : S2048x768.Idx → EReal)) (rc (m ((c : Thread nD τ).loc main_arg5) : S768x1024.Idx → EReal))) := by
  funext n d
  show (V6 m ρ c main_v7 : S2048x1024.Idx → EReal) (ix2 n d) = _
  rw [entry4_ctx, context_result]
  show context (scoreAfter (rc (V4 m ρ c main_v4 : S2048x1024.Idx → EReal)) (rc (V4 m ρ c main_v5 : S2048x1024.Idx → EReal))) (rc (V4 m ρ c main_v6 : S2048x1024.Idx → EReal)) n d = _
  rw [queries, keys, values]

/-- THE RESULT: the specification's output, scores scaled after the dot product, of the eight arguments. -/
theorem result_value : W7 m ρ c (Proc.devRef .tc main_v9)
    = fun i => output (scoreAfter (mm (rc (m ((c : Thread nD τ).loc main_arg0) : S2048x1024.Idx → EReal)) (rc (m ((c : Thread nD τ).loc main_arg3) : S1024x1024.Idx → EReal)))
        (mm (rc (m ((c : Thread nD τ).loc main_arg1) : S2048x768.Idx → EReal)) (rc (m ((c : Thread nD τ).loc main_arg4) : S768x1024.Idx → EReal))))
      (mm (rc (m ((c : Thread nD τ).loc main_arg2) : S2048x768.Idx → EReal)) (rc (m ((c : Thread nD τ).loc main_arg5) : S768x1024.Idx → EReal)))
      (rc (m ((c : Thread nD τ).loc main_arg6) : S1024x1024.Idx → EReal)) (at1 (m ((c : Thread nD τ).loc main_arg7) : S1024.Idx → EReal)) (i 0) (i 1) := by
  rw [exit4, dense_result]
  funext i
  obtain ⟨n, j, rfl⟩ : ∃ (n : Fin 2048) (j : Fin 1024), i = ix2 n j := ⟨i 0, i 1, eq_ix2 i⟩
  show mm (rc (V6 m ρ c main_v7 : S2048x1024.Idx → EReal)) (rc (V6 m ρ c main_v3 : S1024x1024.Idx → EReal)) n j + (V6 m ρ c main_v8 : S1x1024.Idx → EReal) (ix2 (0 : Fin 1) j)
    = mm (context _ _) (rc (m ((c : Thread nD τ).loc main_arg6) : S1024x1024.Idx → EReal)) n j + (m ((c : Thread nD τ).loc main_arg7) : S1024.Idx → EReal) (ix1 j)
  rw [entry4_bias, context_in, entry4_weights]

end Cert.KernelIdeal.Result

end
-- ==== Proof.ReferenceValue.lean ====
/-
  The reference program computes the multi-head attention layer of the shared specification, with the scale applied
  to the queries beforehand.

  The program is read one operation at a time, every stage at explicit coordinates:

  • the three projections are matrix products (rows of the input against columns of the weight matrix);
  • every projected query entry is multiplied by 64 ^ (-1/2), kept as the power of the two f32 literals;
  • splitting the 1024 model columns into 16 heads of 64 columns sends entry (n, h, c) of the split array to entry
    (n, 64·h + c) of the flat one, because ((n·16 + h)·64 + c) / 1024 = n and ((n·16 + h)·64 + c) % 1024 = 64·h + c
    for h < 16, c < 64; the transpose that follows puts the head axis first;
  • the batched product of the scaled queries with the keys, over the 64 columns of a head, is the table of scores;
  • the row maximum is the fold of max over the 2048 key positions from the f32 word 0xFF800000, which is -∞; the
    program then takes the maximum of -∞ and that fold, which changes nothing;
  • subtracting the row maximum, exponentiating, summing over the key axis from 0 and dividing gives the softmax weights;
  • the batched product of the weights with the values is the context of each head; merging the heads back sends model
    column d to head d / 64, column d % 64, because (n·1024 + d) / 1024 = n, (n·1024 + d) / 64 % 16 = d / 64 and
    (n·1024 + d) % 64 = d % 64 for d < 1024, and 64·(d / 64) + d % 64 = d;
  • the last product with the output matrix and the broadcast bias give the result.
-/
import proofs.«106647_j59322088292867_2_alg».proof.Proof.AttentionSpec
import proofs.«106647_j59322088292867_2_alg».proof.Proof.Gen.ReferenceIdeal.Read

noncomputable section

namespace Cert.ReferenceIdeal.RefValue

open Cert.ReferenceIdeal Cert.ReferenceIdeal.Read Idealize.ShloMosaic Idealize.ShloMosaic.ValueIdx AttentionSpec

/-- The f32 word 0xFF800000 is -∞. -/
theorem neg_inf_f32 : Ideal.ofBits .f32 0xFF800000#32 = (⊥ : EReal) := by simp [Ideal.ofBits, Ideal.ieee]

/-- Entry (h, n, c) of the head-first array is read from entry (n, 64·h + c) of the flat one. -/
theorem split_idx (h : Fin 16) (n : Fin 2048) (c : Fin 64) :
    idx_main_v6 (idx_main_v7 (ix3 h n c)) = ix2 n (col h c) := funext fun a => by
  have hh := h.isLt; have hn := n.isLt; have hc := c.isLt
  match a with
  | ⟨0, _⟩ => exact Fin.ext (by show ((n.val * 16 + h.val) * 64 + c.val) / 1024 = n.val; omega)
  | ⟨1, _⟩ => exact Fin.ext (by show ((n.val * 16 + h.val) * 64 + c.val) % 1024 = 64 * h.val + c.val; omega)

/-- Entry (n, d) of the merged array is read from head d / 64, row n, column d % 64. -/
theorem merge_idx (n : Fin 2048) (d : Fin 1024) :
    idx_main_v25 (idx_main_v26 (ix2 n d)) = ix3 (headOf d) n (⟨d.val % 64, Nat.mod_lt _ (by decide)⟩ : Fin 64) :=
  funext fun a => by
  have hn := n.isLt; have hd := d.isLt
  match a with
  | ⟨0, _⟩ => exact Fin.ext (by show (n.val * 1024 + d.val) / 64 % 16 = d.val / 64; omega)
  | ⟨1, _⟩ => exact Fin.ext (by show (n.val * 1024 + d.val) / 1024 = n.val; omega)
  | ⟨2, _⟩ => exact Fin.ext (by show (n.val * 1024 + d.val) % 64 = d.val % 64; omega)

/-- A model column is column d % 64 of its own head: 64·(d / 64) + d % 64 = d. -/
theorem col_headOf (d : Fin 1024) : col (headOf d) (⟨d.val % 64, Nat.mod_lt _ (by decide)⟩ : Fin 64) = d :=
  Fin.ext (by show 64 * (d.val / 64) + d.val % 64 = d.val; omega)

/-- The row index (h, n) with the key position k inserted on the last axis is (h, n, k). -/
theorem lift_row (hr : S16x2048x2048.Reduces [2] S16x2048) (h : Fin 16) (n : Fin 2048) (k : Fin 2048) :
    hr.lift (ix2 h n) k = ix3 h n k := funext fun c => by
  match c with
  | ⟨0, hc⟩ =>
    refine Fin.ext ?_
    show hr.liftVal (ix2 h n) k.val ⟨0, hc⟩ = h.val
    simp [Shape.Reduces.liftVal]
  | ⟨1, hc⟩ =>
    refine Fin.ext ?_
    show hr.liftVal (ix2 h n) k.val ⟨1, hc⟩ = n.val
    simp [Shape.Reduces.liftVal]
  | ⟨2, hc⟩ =>
    refine Fin.ext ?_
    show hr.liftVal (ix2 h n) k.val ⟨2, hc⟩ = k.val
    simp [Shape.Reduces.liftVal]

section Stages

variable (x0 : (⟨S2048x1024, .f32⟩ : BufTy).Contents (Elt Ideal)) (x1 x2 : (⟨S2048x768, .f32⟩ : BufTy).Contents (Elt Ideal))
  (x3 : (⟨S1024x1024, .f32⟩ : BufTy).Contents (Elt Ideal)) (x4 x5 : (⟨S768x1024, .f32⟩ : BufTy).Contents (Elt Ideal))
  (x6 : (⟨S1024x1024, .f32⟩ : BufTy).Contents (Elt Ideal)) (x7 : (⟨S1024, .f32⟩ : BufTy).Contents (Elt Ideal))

/-- The query projection is the matrix product of the queries with their weight matrix. -/
theorem proj_q (n : Fin 2048) (d : Fin 1024) :
    val_main_v0 (F := Ideal) x0 x3 (ix2 n d) = mm (rc x0) (rc x3) n d := by
  refine (val_main_v0_apply x0 x3 (ix2 n d)).trans ?_
  unfold mm
  refine Finset.sum_congr rfl fun k _ => ?_
  have el : lidx_main_v0 (ix2 n d) k = ix2 n k := funext fun a => by
    match a with
    | ⟨0, _⟩ => rfl
    | ⟨1, _⟩ => rfl
  have er : ridx_main_v0 (ix2 n d) k = ix2 k d := funext fun a => by
    match a with
    | ⟨0, _⟩ => rfl
    | ⟨1, _⟩ => rfl
  rw [el, er]

/-- The key projection is the matrix product of the keys with their weight matrix. -/
theorem proj_k (n : Fin 2048) (d : Fin 1024) :
    val_main_v1 (F := Ideal) x1 x4 (ix2 n d) = mm (rc x1) (rc x4) n d := by
  refine (val_main_v1_apply x1 x4 (ix2 n d)).trans ?_
  unfold mm
  refine Finset.sum_congr rfl fun k _ => ?_
  have el : lidx_main_v1 (ix2 n d) k = ix2 n k := funext fun a => by
    match a with
    | ⟨0, _⟩ => rfl
    | ⟨1, _⟩ => rfl
  have er : ridx_main_v1 (ix2 n d) k = ix2 k d := funext fun a => by
    match a with
    | ⟨0, _⟩ => rfl
    | ⟨1, _⟩ => rfl
  rw [el, er]

/-- The value projection is the matrix product of the values with their weight matrix. -/
theorem proj_v (n : Fin 2048) (d : Fin 1024) :
    val_main_v2 (F := Ideal) x2 x5 (ix2 n d) = mm (rc x2) (rc x5) n d := by
  refine (val_main_v2_apply x2 x5 (ix2 n d)).trans ?_
  unfold mm
  refine Finset.sum_congr rfl fun k _ => ?_
  have el : lidx_main_v2 (ix2 n d) k = ix2 n k := funext fun a => by
    match a with
    | ⟨0, _⟩ => rfl
    | ⟨1, _⟩ => rfl
  have er : ridx_main_v2 (ix2 n d) k = ix2 k d := funext fun a => by
    match a with
    | ⟨0, _⟩ => rfl
    | ⟨1, _⟩ => rfl
  rw [el, er]

/-- Every projected query entry times 64 ^ (-1/2), the power left as the two f32 literals. -/
theorem scaled_q (n : Fin 2048) (d : Fin 1024) :
    val_main_v5 (F := Ideal) x0 x3 (ix2 n d)
      = mm (rc x0) (rc x3) n d * Ideal.pow (Ideal.ofBits .f32 0x42800000#32) (Ideal.ofBits .f32 0xBF000000#32) := by
  refine (val_main_v5_apply x0 x3 (ix2 n d)).trans ?_
  rw [proj_q, val_main_v4_apply, val_main_v3_apply, val_main_cst_apply, val_main_cst_0_apply]
  rfl

/-- The scaled queries, head first: head h, row n, column c is model column 64·h + c of row n. -/
theorem heads_q (h : Fin 16) (n : Fin 2048) (c : Fin 64) :
    val_main_v7 (F := Ideal) x0 x3 (ix3 h n c)
      = mm (rc x0) (rc x3) n (col h c) * Ideal.pow (Ideal.ofBits .f32 0x42800000#32) (Ideal.ofBits .f32 0xBF000000#32) := by
  rw [val_main_v7_apply, val_main_v6_apply, split_idx, scaled_q]

/-- The keys, head first. -/
theorem heads_k (h : Fin 16) (n : Fin 2048) (c : Fin 64) :
    val_main_v9 (F := Ideal) x1 x4 (ix3 h n c) = mm (rc x1) (rc x4) n (col h c) := by
  rw [val_main_v9_apply, val_main_v8_apply]
  refine (congrArg _ (split_idx h n c)).trans ?_
  exact proj_k x1 x4 n (col h c)

/-- The values, head first. -/
theorem heads_v (h : Fin 16) (n : Fin 2048) (c : Fin 64) :
    val_main_v11 (F := Ideal) x2 x5 (ix3 h n c) = mm (rc x2) (rc x5) n (col h c) := by
  rw [val_main_v11_apply, val_main_v10_apply]
  refine (congrArg _ (split_idx h n c)).trans ?_
  exact proj_v x2 x5 n (col h c)

/-- The table of scores: the dot product over a head's 64 columns of the scaled query row and the key row. -/
theorem scores (h : Fin 16) (n m : Fin 2048) :
    val_main_v12 (F := Ideal) x0 x1 x3 x4 (ix3 h n m)
      = scoreBefore (mm (rc x0) (rc x3)) (mm (rc x1) (rc x4)) h n m := by
  refine (val_main_v12_apply x0 x1 x3 x4 (ix3 h n m)).trans ?_
  unfold scoreBefore
  refine Finset.sum_congr rfl fun k _ => ?_
  have el : lidx_main_v12 (ix3 h n m) k = ix3 h n k := funext fun a => by
    match a with
    | ⟨0, _⟩ => rfl
    | ⟨1, _⟩ => rfl
    | ⟨2, _⟩ => rfl
  have er : ridx_main_v12 (ix3 h n m) k = ix3 h m k := funext fun a => by
    match a with
    | ⟨0, _⟩ => rfl
    | ⟨1, _⟩ => rfl
    | ⟨2, _⟩ => rfl
  rw [el, er, heads_q, heads_k]

/-- The row maximum: max is commutative and associative, so the reduction over the key axis is the fold of max over
    the 2048 key positions from -∞; the further maximum with -∞ leaves it unchanged. -/
theorem row_max (h : Fin 16) (n : Fin 2048) :
    val_main_v15 (F := Ideal) x0 x1 x3 x4 (ix2 h n)
      = rowMax (scoreBefore (mm (rc x0) (rc x3)) (mm (rc x1) (rc x4)) h n) := by
  have hr : S16x2048x2048.Reduces [2] S16x2048 := by decide
  refine (val_main_v15_apply x0 x1 x3 x4 (ix2 h n)).trans ?_
  rw [val_main_v14_apply, val_main_cst_2_apply]
  unfold val_main_v13
  rw [Host.reduce_eq_fold_single (a := 2) FloatOps.maximumf _ _ _ hr _ (ix2 h n)]
  have hf : (val_main_v12 (F := Ideal) x0 x1 x3 x4 ∘ hr.lift (ix2 h n))
      = scoreBefore (mm (rc x0) (rc x3)) (mm (rc x1) (rc x4)) h n := funext fun k => by
    show val_main_v12 (F := Ideal) x0 x1 x3 x4 (hr.lift (ix2 h n) k) = _
    rw [lift_row hr h n k]
    exact scores x0 x1 x3 x4 h n k
  rw [hf, val_main_cst_1_apply]
  show max (Ideal.ofBits .f32 0xFF800000#32) ((Finset.univ : Finset (Fin 2048)).fold max (Ideal.ofBits .f32 0xFF800000#32) _) = _
  rw [neg_inf_f32]
  exact max_bot_left _

/-- The row maximum, repeated along the key axis. -/
theorem row_max_bcast (h : Fin 16) (n m : Fin 2048) :
    val_main_v17 (F := Ideal) x0 x1 x3 x4 (ix3 h n m)
      = rowMax (scoreBefore (mm (rc x0) (rc x3)) (mm (rc x1) (rc x4)) h n) := by
  rw [val_main_v17_apply, val_main_v16_apply]
  have e : idx_main_v16 (idx_main_v17 (ix3 h n m)) = ix2 h n := funext fun a => by
    match a with
    | ⟨0, _⟩ => rfl
    | ⟨1, _⟩ => rfl
  rw [e, row_max]

/-- The exponential of the score shifted by its row's maximum. -/
theorem exp_shifted (h : Fin 16) (n m : Fin 2048) :
    val_main_v19 (F := Ideal) x0 x1 x3 x4 (ix3 h n m)
      = Ideal.exp (scoreBefore (mm (rc x0) (rc x3)) (mm (rc x1) (rc x4)) h n m
          - rowMax (scoreBefore (mm (rc x0) (rc x3)) (mm (rc x1) (rc x4)) h n)) := by
  refine (val_main_v19_apply x0 x1 x3 x4 (ix3 h n m)).trans ?_
  rw [val_main_v18_apply, scores, row_max_bcast]
  rfl

/-- The row's sum of exponentials: the sum starts from the f32 word 0, which is the number 0. -/
theorem exp_sum (h : Fin 16) (n : Fin 2048) :
    val_main_v20 (F := Ideal) x0 x1 x3 x4 (ix2 h n)
      = ∑ m' : Fin 2048, Ideal.exp (scoreBefore (mm (rc x0) (rc x3)) (mm (rc x1) (rc x4)) h n m'
          - rowMax (scoreBefore (mm (rc x0) (rc x3)) (mm (rc x1) (rc x4)) h n)) := by
  refine (val_main_v20_apply x0 x1 x3 x4 (ix2 h n)).trans ?_
  rw [val_main_cst_3_apply, Ideal.ofBits_def, Ideal.ofBits_zero_f32, zero_add]
  refine Finset.sum_congr rfl fun k _ => ?_
  have e : idx_main_v20 (ix2 h n) k = ix3 h n k := funext fun a => by
    match a with
    | ⟨0, _⟩ => rfl
    | ⟨1, _⟩ => rfl
    | ⟨2, _⟩ => rfl
  rw [e, exp_shifted]

/-- The softmax weights: each exponential divided by its row's sum. -/
theorem weights (h : Fin 16) (n m : Fin 2048) :
    val_main_v23 (F := Ideal) x0 x1 x3 x4 (ix3 h n m)
      = weight (scoreBefore (mm (rc x0) (rc x3)) (mm (rc x1) (rc x4)) h n) m := by
  refine (val_main_v23_apply x0 x1 x3 x4 (ix3 h n m)).trans ?_
  rw [val_main_v22_apply, val_main_v21_apply]
  have e : idx_main_v21 (idx_main_v22 (ix3 h n m)) = ix2 h n := funext fun a => by
    match a with
    | ⟨0, _⟩ => rfl
    | ⟨1, _⟩ => rfl
  rw [e, exp_sum, exp_shifted]
  rfl

/-- The context of one head: the value rows of the head's columns, averaged with the weights. -/
theorem head_context (h : Fin 16) (n : Fin 2048) (c : Fin 64) :
    val_main_v24 (F := Ideal) x0 x1 x2 x3 x4 x5 (ix3 h n c)
      = ∑ m : Fin 2048, weight (scoreBefore (mm (rc x0) (rc x3)) (mm (rc x1) (rc x4)) h n) m
          * mm (rc x2) (rc x5) m (col h c) := by
  refine (val_main_v24_apply x0 x1 x2 x3 x4 x5 (ix3 h n c)).trans ?_
  refine Finset.sum_congr rfl fun k _ => ?_
  have el : lidx_main_v24 (ix3 h n c) k = ix3 h n k := funext fun a => by
    match a with
    | ⟨0, _⟩ => rfl
    | ⟨1, _⟩ => rfl
    | ⟨2, _⟩ => rfl
  have er : ridx_main_v24 (ix3 h n c) k = ix3 h k c := funext fun a => by
    match a with
    | ⟨0, _⟩ => rfl
    | ⟨1, _⟩ => rfl
    | ⟨2, _⟩ => rfl
  rw [el, er, weights, heads_v]

/-- The context with the heads merged back into the 1024 model columns. -/
theorem merged_context (n : Fin 2048) (d : Fin 1024) :
    val_main_v26 (F := Ideal) x0 x1 x2 x3 x4 x5 (ix2 n d)
      = context (scoreBefore (mm (rc x0) (rc x3)) (mm (rc x1) (rc x4))) (mm (rc x2) (rc x5)) n d := by
  rw [val_main_v26_apply, val_main_v25_apply, merge_idx, head_context]
  unfold context
  refine Finset.sum_congr rfl fun m _ => ?_
  rw [col_headOf]

/-- The bias, repeated on every row. -/
theorem bias (n : Fin 2048) (j : Fin 1024) : val_main_v29 (F := Ideal) x7 (ix2 n j) = at1 x7 j := by
  rw [val_main_v29_apply, val_main_v28_apply]
  have e : idx_main_v28 (idx_main_v29 (ix2 n j)) = ix1 j := funext fun a => by
    match a with
    | ⟨0, _⟩ => rfl
  rw [e]

/-- The result at row n and column j: the context times the output matrix, plus the bias. -/
theorem result_at (n : Fin 2048) (j : Fin 1024) :
    val_main_v30 (F := Ideal) x0 x1 x2 x3 x4 x5 x6 x7 (ix2 n j)
      = output (scoreBefore (mm (rc x0) (rc x3)) (mm (rc x1) (rc x4))) (mm (rc x2) (rc x5)) (rc x6) (at1 x7) n j := by
  refine (val_main_v30_apply x0 x1 x2 x3 x4 x5 x6 x7 (ix2 n j)).trans ?_
  rw [bias]
  unfold output
  show val_main_v27 (F := Ideal) x0 x1 x2 x3 x4 x5 x6 (ix2 n j) + at1 x7 j = _
  refine congrArg (· + at1 x7 j) ?_
  refine (val_main_v27_apply x0 x1 x2 x3 x4 x5 x6 (ix2 n j)).trans ?_
  show _ = ∑ k : Fin 1024, context _ _ n k * rc x6 k j
  refine Finset.sum_congr rfl fun k _ => ?_
  have el : lidx_main_v27 (ix2 n j) k = ix2 n k := funext fun a => by
    match a with
    | ⟨0, _⟩ => rfl
    | ⟨1, _⟩ => rfl
  have er : ridx_main_v27 (ix2 n j) k = ix2 k j := funext fun a => by
    match a with
    | ⟨0, _⟩ => rfl
    | ⟨1, _⟩ => rfl
  rw [el, er, merged_context]

end Stages

/-- The reference program's result is the specification's output, computed from the scores whose queries are scaled
    beforehand. -/
theorem result_eq (x0 : (⟨S2048x1024, .f32⟩ : BufTy).Contents (Elt Ideal)) (x1 x2 : (⟨S2048x768, .f32⟩ : BufTy).Contents (Elt Ideal))
    (x3 : (⟨S1024x1024, .f32⟩ : BufTy).Contents (Elt Ideal)) (x4 x5 : (⟨S768x1024, .f32⟩ : BufTy).Contents (Elt Ideal))
    (x6 : (⟨S1024x1024, .f32⟩ : BufTy).Contents (Elt Ideal)) (x7 : (⟨S1024, .f32⟩ : BufTy).Contents (Elt Ideal)) :
    Cert.ReferenceIdeal.Read.val_main_v30 (F := Ideal) x0 x1 x2 x3 x4 x5 x6 x7
      = fun i => AttentionSpec.output (AttentionSpec.scoreBefore (AttentionSpec.mm (AttentionSpec.rc x0) (AttentionSpec.rc x3)) (AttentionSpec.mm (AttentionSpec.rc x1) (AttentionSpec.rc x4)))
                   (AttentionSpec.mm (AttentionSpec.rc x2) (AttentionSpec.rc x5)) (AttentionSpec.rc x6) (AttentionSpec.at1 x7) (i 0) (i 1) := by
  funext i
  obtain ⟨n, j, rfl⟩ : ∃ (n : Fin 2048) (j : Fin 1024), i = ix2 n j := ⟨i 0, i 1, eq_ix2 i⟩
  exact result_at x0 x1 x2 x3 x4 x5 x6 x7 n j

end Cert.ReferenceIdeal.RefValue

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.ScaleAlgebra.lean ====
/-
  The scale of the attention scores, and why it may be applied before or after the dot product.

  • The f32 word 0x3E000000 is the number 1/8; the words 0x42800000 and 0xBF000000 are 64 and -1/2, and
    64 ^ (-1/2) = (8 ^ 2) ^ (-1/2) = 8 ^ (-1) = 1/8. So the two programs scale by the same real number.
  • A matrix product of two tables of real numbers is a table of real numbers.
  • For REAL rows q and k and a real scale s:  ∑ (q_c · s) · k_c = (∑ q_c · k_c) · s  — a finite sum of reals, where
    multiplication distributes and commutes. Over the extended reals this needs the entries finite: with an infinite
    entry one side may be +∞ - ∞ while the other is not, so the hypotheses say every entry is a real.
-/
import Mathlib
import proofs.«106647_j59322088292867_2_alg».proof.Proof.AttentionSpec
import proofs.«106647_j59322088292867_2_alg».proof.Proof.LibMoments

noncomputable section

namespace AttentionSpec

open Idealize.ShloMosaic

/-- The f32 word 0x3E000000 is 1/8: sign 0, exponent field 124 (2^(124-127) = 2^(-3)), fraction 0. -/
theorem eighth_f32 : Ideal.ofBits .f32 0x3E000000#32 = ((1 / 8 : ℝ) : EReal) := by
  simp [Ideal.ofBits, Ideal.ieee, -EReal.coe_mul]; norm_num

/-- The f32 word 0x42800000 is 64: sign 0, exponent field 133 (2^6), fraction 0. -/
theorem sixtyfour_f32 : Ideal.ofBits .f32 0x42800000#32 = ((64 : ℝ) : EReal) := by
  simp [Ideal.ofBits, Ideal.ieee, -EReal.coe_mul]; norm_num

/-- The f32 word 0xBF000000 is -1/2: sign 1, exponent field 126 (2^(-1)), fraction 0. -/
theorem neg_half_f32 : Ideal.ofBits .f32 0xBF000000#32 = ((-(1 / 2) : ℝ) : EReal) := by
  simp [Ideal.ofBits, Ideal.ieee, -EReal.coe_mul]; norm_num

/-- 64 ^ (-1/2) = 1/8 as a real power: 64 = 8 ^ 2, and (8 ^ 2) ^ (-1/2) = 8 ^ (2 · (-1/2)) = 8 ^ (-1). -/
theorem rpow_64_neg_half : Real.rpow 64 (-(1 / 2)) = 1 / 8 := by
  have h8 : (64 : ℝ) = 8 ^ (2 : ℝ) := by norm_num
  show (64 : ℝ) ^ (-(1 / 2) : ℝ) = 1 / 8
  rw [h8, ← Real.rpow_mul (by norm_num : (0 : ℝ) ≤ 8)]
  norm_num

/-- The power of the two words, 64 ^ (-1/2), is 1/8. -/
theorem pow_64_neg_half :
    Ideal.pow (Ideal.ofBits .f32 0x42800000#32) (Ideal.ofBits .f32 0xBF000000#32) = ((1 / 8 : ℝ) : EReal) := by
  rw [sixtyfour_f32, neg_half_f32, Ideal.pow_coe_coe]
  exact congrArg _ rpow_64_neg_half

/-- A matrix product of two real tables is a real table: each entry is a finite sum of products of reals. -/
theorem mm_real {M K N : ℕ} (X : Fin M → Fin K → EReal) (W : Fin K → Fin N → EReal)
    (hX : ∀ r k, ∃ x : ℝ, X r k = (x : EReal)) (hW : ∀ k c, ∃ w : ℝ, W k c = (w : EReal))
    (r : Fin M) (c : Fin N) : ∃ y : ℝ, mm X W r c = (y : EReal) :=
  Moments.Fin'.sum _ _ fun k _ => Moments.Fin'.mul (hX r k) (hW k c)

/-- With real entries and one real scale, scaling every left factor before the dot product gives the dot product
    scaled afterwards:  ∑ (q_c · s) · k_c = (∑ q_c · k_c) · s. -/
theorem scaled_dot (s t : EReal) (hs : s = ((1 / 8 : ℝ) : EReal)) (ht : t = ((1 / 8 : ℝ) : EReal))
    (qp kp : Fin 2048 → Fin 1024 → EReal)
    (hq : ∀ n j, ∃ r : ℝ, qp n j = (r : EReal)) (hk : ∀ m j, ∃ r : ℝ, kp m j = (r : EReal))
    (h : Fin 16) (n m : Fin 2048) :
    (∑ c : Fin 64, (qp n (col h c) * s) * kp m (col h c)) = (∑ c : Fin 64, qp n (col h c) * kp m (col h c)) * t := by
  choose q hq' using hq
  choose k hk' using hk
  subst hs ht
  simp only [hq', hk', ← EReal.coe_mul, ← Moments.coe_sum]
  refine congrArg _ ?_
  rw [Finset.sum_mul]
  exact Finset.sum_congr rfl fun c _ => by ring

/-- On real projected queries and keys the two score tables are the same table: both scales are the number 1/8. -/
theorem scoreBefore_eq_scoreAfter (qp kp : Fin 2048 → Fin 1024 → EReal)
    (hq : ∀ n j, ∃ r : ℝ, qp n j = (r : EReal)) (hk : ∀ m j, ∃ r : ℝ, kp m j = (r : EReal)) :
    scoreBefore qp kp = scoreAfter qp kp := by
  funext h n m
  exact scaled_dot _ _ pow_64_neg_half eighth_f32 qp kp hq hk h n m

end AttentionSpec

end
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.FiniteInputs.lean ====
/-
  The precondition, read back: every entry of the eight float arguments is a real number.

  The precondition computes, for each of the eight arguments, the conjunction over all entries x of the test
  |x| < +∞  (|x| being max(x, -x), +∞ the f32 word 0x7F800000 spread over the argument's shape), and then the
  conjunction of the eight results; it is assumed to be 1. A conjunction of one-bit words is 1 exactly when both
  words are 1, so each of the eight results is 1; a conjunction over all entries that is 1 met a 1 at every entry; and
  an extended real x with max(x, -x) < +∞ is neither +∞ nor -∞, hence a real number.
-/
import proofs.«106647_j59322088292867_2_alg».proof.Defs
import proofs.«106647_j59322088292867_2_alg».proof.Proof.LibStraightThrough
import Idealize.ShloMosaic.Lib.ReduceAll
import Idealize.ShloMosaic.Lib.ValueIdx

noncomputable section

namespace Cert.FiniteInputs

open Idealize.ShloMosaic Idealize.ShloMosaic.ValueIdx Idealize.SL.Sem Cert.Pre_finite_inputs

/-- The rank-0 shape has exactly one index (there is no coordinate to differ in). -/
instance : Subsingleton S_.Idx := ⟨fun a b => funext fun d => d.elim0⟩

/-- One argument's test. If the conjunction over ALL entries of  |a_i| < +∞  is 1, then every entry a_i is a real
    number: the conjunction being 1 forces the test to be 1 at each entry i, where it reads
    max (a_i) (-a_i) < +∞ with +∞ the word 0x7F800000, and that excludes both infinities. -/
theorem real_of_all {s : Shape} {axes : List (Fin s.rank)}
    (hb : S_.BroadcastsInDim s (![] : Fin 0 → Fin s.rank)) (hr : s.ReducesTo axes S_) (hu : 0 < S_.numel)
    (a : FVec Ideal s .f32) (j : S_.Idx)
    (h : Host.reduce IntOp.andi
          (cmpf .olt (Host.absf a) (broadcastInDim s ![] hb (constant (F := Ideal) S_ .f32 0x7F800000#32)))
          (constantI S_ 1 1#1) hr hu j = 1#1)
    (i : s.Idx) : ∃ r : ℝ, a i = (r : EReal) :=
  Cert.LibStraightThrough.real_of_abs_lt_inf (a i) (Host.reduce_andi_all _ _ hr hu j h i)

/-- The whole precondition. It is the left-nested conjunction  ((((((t0 ∧ t1) ∧ t2) ∧ t3) ∧ t4) ∧ t5) ∧ t6) ∧ t7  of
    the eight arguments' tests; peeling it from the outside gives each t_k = 1, and each test gives its argument's
    entries real. -/
theorem all_real [Facts]
    (a0 : FVec Ideal S2048x1024 .f32) (a1 a2 : FVec Ideal S2048x768 .f32) (a3 : FVec Ideal S1024x1024 .f32)
    (a4 a5 : FVec Ideal S768x1024 .f32) (a6 : FVec Ideal S1024x1024 .f32) (a7 : FVec Ideal S1024 .f32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h7 := IntOp.andi_eq_one.1 (congrFun h ix0)
  have h6 := IntOp.andi_eq_one.1 h7.1
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  exact ⟨real_of_all _ _ _ a0 ix0 h1.1, real_of_all _ _ _ a1 ix0 h1.2, real_of_all _ _ _ a2 ix0 h2.2,
    real_of_all _ _ _ a3 ix0 h3.2, real_of_all _ _ _ a4 ix0 h4.2, real_of_all _ _ _ a5 ix0 h5.2,
    real_of_all _ _ _ a6 ix0 h6.2, real_of_all _ _ _ a7 ix0 h7.2⟩

/-- The same for the kernel's memory: on every device the assumed precondition is the test above applied to the eight
    argument arrays as the memory holds them, so all their entries are real numbers. -/
theorem kernel_inputs_real
    (m : (ℓ : Loc Cert.KernelIdeal.nD Cert.KernelIdeal.τ Cert.KernelIdeal.sig) → Buf (Elt Ideal) ℓ)
    [Cert.Pre_finite_inputs.Facts] (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal)) :=
  all_real _ _ _ _ _ _ _ _ (h c)

end Cert.FiniteInputs

end
-- ==== Proof.lean ====
/-
  Multi-head attention: a Pallas kernel in five regions against its jnp reference, equal over the extended reals.

  Both programs compute, from queries q, keys k, values v and the four weight arrays,
      out = context · Wo + bo,   context(n, d) = Σ_m softmax_m( score(d / 64, n, ·) ) · (v·Wv)(m, d),
  with 16 heads of 64 columns. They differ in where the scale 64^(-1/2) = 1/8 enters the scores: the kernel multiplies the
  finished dot product of a query row and a key row by the literal 1/8; the reference multiplies every projected query
  entry by 64^(-1/2) (a power of two literals, which is exactly 1/8) before the dot product. Moving the factor across the
  64-term sum is distributivity, which fails at infinities on the extended reals; it holds here because the projected
  queries and keys are finite sums of products of finite inputs — the one place the precondition is used. Everything
  after the scores is one and the same function of them.

  The kernel's side: each region's result array as a function of the arrays the region finds (three row-tiled matrix
  products, the attention tiles, the output layer), chained through the contents at the boundaries between regions. The
  reference's side: its host operations read one at a time at an index. The frames of the three programs are the
  generated ones; the idealization rewrote nothing.
-/
import proofs.«106647_j59322088292867_2_alg».proof.Defs
import proofs.«106647_j59322088292867_2_alg».proof.Proof.Gen.Kernel
import proofs.«106647_j59322088292867_2_alg».proof.Proof.Gen.Kernel.Skeleton
import proofs.«106647_j59322088292867_2_alg».proof.Proof.Gen.Kernel.Launch
import proofs.«106647_j59322088292867_2_alg».proof.Proof.Gen.Kernel.Points
import proofs.«106647_j59322088292867_2_alg».proof.Proof.Gen.Kernel.Frame
import proofs.«106647_j59322088292867_2_alg».proof.Proof.Gen.KernelIdeal
import proofs.«106647_j59322088292867_2_alg».proof.Proof.Gen.KernelIdeal.Skeleton
import proofs.«106647_j59322088292867_2_alg».proof.Proof.Gen.KernelIdeal.Launch
import proofs.«106647_j59322088292867_2_alg».proof.Proof.Gen.KernelIdeal.Points
import proofs.«106647_j59322088292867_2_alg».proof.Proof.Gen.KernelIdeal.Frame
import proofs.«106647_j59322088292867_2_alg».proof.Proof.Gen.ReferenceIdeal
import proofs.«106647_j59322088292867_2_alg».proof.Proof.Gen.ReferenceIdeal.Run
import proofs.«106647_j59322088292867_2_alg».proof.Proof.Gen.ReferenceIdeal.Read
import proofs.«106647_j59322088292867_2_alg».proof.Proof.Gen.Pre_finite_inputs
import proofs.«106647_j59322088292867_2_alg».proof.Proof.KernelRun
import proofs.«106647_j59322088292867_2_alg».proof.Proof.KernelValue
import proofs.«106647_j59322088292867_2_alg».proof.Proof.ReferenceValue
import proofs.«106647_j59322088292867_2_alg».proof.Proof.ScaleAlgebra
import proofs.«106647_j59322088292867_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx AttentionSpec

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight finite arguments, the idealized kernel ends with its result array at the
    specification's output with the scores scaled after the dot product, the reference with the scores scaled before
    it; the projected queries and keys are real numbers, so the two score tables are equal, and with them the outputs. -/
theorem algebraic : Cert.algebraic_KernelIdeal_ReferenceIdeal := by
  intro m ρ m' ρ' hpre hagree
  refine ⟨fun c => Cert.KernelIdeal.Gen.W7 m ρ c (Proc.devRef .tc Cert.KernelIdeal.main_v9), Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨f0, f1, f2, f3, f4, f5, f6, f7⟩ := Cert.FiniteInputs.kernel_inputs_real m hpre c
  rw [Cert.ReferenceIdeal.Read.val_main_v30_eq, Cert.ReferenceIdeal.RefValue.result_eq, a0, a1, a2, a3, a4, a5, a6, a7]
  refine Eq.trans ?_ (Cert.KernelIdeal.Result.result_value m ρ c).symm
  have hs := scoreBefore_eq_scoreAfter _ _
    (mm_real _ _ (fun r k => f0 (ix2 r k)) (fun k j => f3 (ix2 k j)))
    (mm_real _ _ (fun r k => f1 (ix2 r k)) (fun k j => f4 (ix2 k j)))
  funext i
  obtain ⟨n, j, rfl⟩ : ∃ (n : Fin 2048) (j : Fin 1024), i = ix2 n j := ⟨i 0, i 1, eq_ix2 i⟩
  show output (scoreBefore _ _) _ _ _ n j = output (scoreAfter _ _) _ _ _ n j
  rw [hs]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernel_ideal, Cert.Proof.frame_reference, Cert.Proof.preserves, Cert.Proof.algebraic⟩

end
